-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S8192x768 .f32) : IVec S_ 1 :=
  let main_v0 : FVec F S8192x768 .f32 := Host.absf main_arg1
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 8191#32
  let main_v6 : IVec S4x8192 32 := broadcastInDim S4x8192 ![] bcast_S_S4x8192 main_c_1
  let main_v7 : IVec S4x8192 1 := cmpi .sle main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S8192x768 : Shape := ⟨2, ![8192, 768]⟩
abbrev S4x8192x768 : Shape := ⟨3, ![4, 8192, 768]⟩
abbrev S128x768 : Shape := ⟨2, ![128, 768]⟩
abbrev S_ : Shape := ⟨0, ![]⟩
abbrev S1x128x768 : Shape := ⟨3, ![1, 128, 768]⟩

abbrev nBuf : Table → Nat
  | .hbm => 3
  | .local .scVector .vmem => 1
  | _ => 0

abbrev bufTy : (tb : Table) → Fin (nBuf tb) → BufTy
  | .hbm, ⟨0, _⟩ => ⟨S4x8192, .i32⟩
  | .hbm, ⟨1, _⟩ => ⟨S8192x768, .f32⟩
  | .hbm, ⟨2, _⟩ => ⟨S4x8192x768, .f32⟩
  | .local .scVector .vmem, ⟨0, _⟩ => ⟨S128x768, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := Scalar.addi v2 v4
  let c0_i32_25_r0 : BitVec 32 := 0#32
  ![v5.toNat, 0]
def k0_off2 (i : grid0.Coords) (k0_t1 : Fin k0_t1_loop.trips) : Fin 3 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := Scalar.addi v2 v4
  let c0_i32_3 : BitVec 32 := 0#32
  ![0, v5.toNat, 0]
def k0_off3 (i : grid0.Coords) (k0_t1 : Fin k0_t1_loop.trips) : Fin 3 → Nat :=
  let c1_i32_5 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := Scalar.addi v2 v4
  let c0_i32_6 : BitVec 32 := 0#32
  ![1, v5.toNat, 0]
def k0_off4 (i : grid0.Coords) (k0_t1 : Fin k0_t1_loop.trips) : Fin 3 → Nat :=
  let c2_i32_8 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := Scalar.addi v2 v4
  let c0_i32_9 : BitVec 32 := 0#32
  ![2, v5.toNat, 0]
def k0_off5 (i : grid0.Coords) (k0_t1 : Fin k0_t1_loop.trips) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := Scalar.addi v2 v4
  let c0_i32_11 : BitVec 32 := 0#32
  ![3, v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x128x768_S128x768 : S1x128x768.Squeezes S128x768
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128x768.size a ≤ S8192x768.size a
  k0_off2_inb : ∀ (i : grid0.Coords) (k0_t1 : Fin k0_t1_loop.trips), ∀ a, (k0_off2 i k0_t1) a + S1x128x768.size a ≤ S4x8192x768.size a
  k0_off3_inb : ∀ (i : grid0.Coords) (k0_t1 : Fin k0_t1_loop.trips), ∀ a, (k0_off3 i k0_t1) a + S1x128x768.size a ≤ S4x8192x768.size a
  k0_off4_inb : ∀ (i : grid0.Coords) (k0_t1 : Fin k0_t1_loop.trips), ∀ a, (k0_off4 i k0_t1) a + S1x128x768.size a ≤ S4x8192x768.size a
  k0_off5_inb : ∀ (i : grid0.Coords) (k0_t1 : Fin k0_t1_loop.trips), ∀ a, (k0_off5 i k0_t1) a + S1x128x768.size a ≤ S4x8192x768.size a

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S4x8192 : Shape := ⟨2, ![4, 8192]⟩
abbrev S8192x768 : Shape := ⟨2, ![8192, 768]⟩
abbrev S1x8192x768 : Shape := ⟨3, ![1, 8192, 768]⟩
abbrev S1x1x1x8192x1x768 : Shape := ⟨6, ![1, 1, 1, 8192, 1, 768]⟩
abbrev S4x1x1x8192x1x768 : Shape := ⟨6, ![4, 1, 1, 8192, 1, 768]⟩
abbrev S4x8192x768 : Shape := ⟨3, ![4, 8192, 768]⟩

abbrev nBuf : Space → Nat
  | .hbm => 6
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x768, .f32⟩
  | .hbm, ⟨2, _⟩ => ⟨S1x8192x768, .f32⟩
  | .hbm, ⟨3, _⟩ => ⟨S1x1x1x8192x1x768, .f32⟩
  | .hbm, ⟨4, _⟩ => ⟨S4x1x1x8192x1x768, .f32⟩
  | .hbm, ⟨5, _⟩ => ⟨S4x8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S8192x768_S1x8192x768_1_2 : S8192x768.BroadcastsInDim S1x8192x768 (![1, 2] : Fin 2 → Fin S1x8192x768.rank)
  shapeCasts_S1x8192x768_S1x1x1x8192x1x768 : S1x8192x768.ShapeCasts S1x1x1x8192x1x768
  bcast_S1x1x1x8192x1x768_S4x1x1x8192x1x768_0_1_2_3_4_5 : S1x1x1x8192x1x768.BroadcastsInDim S4x1x1x8192x1x768 (![0, 1, 2, 3, 4, 5] : Fin 6 → Fin S4x1x1x8192x1x768.rank)
  shapeCasts_S4x1x1x8192x1x768_S4x8192x768 : S4x1x1x8192x1x768.ShapeCasts S4x8192x768

variable [Facts₀]

class Facts : Prop extends Facts₀ where

variable [Facts]
-- ==== Proof.Spec.lean ====
/-
  The function both programs compute: a table of 8192 rows of 768 numbers laid out four times, once per
  batch entry. Entry (b, r, e) of the result is entry (r, e) of the table, whatever b is: nothing is
  added, scaled or rounded, so the statement is the same over any element type.
-/
import Idealize.ShloMosaic.Lib.ValueIdx
import Idealize.ShloMosaic.Lib.ValueIdxRank6

namespace Cert.Spec

open Idealize.ShloMosaic

/-- The table's shape, and the result's. -/
abbrev STab : Shape := ⟨2, ![8192, 768]⟩
abbrev SRes : Shape := ⟨3, ![4, 8192, 768]⟩

/-- The table entry a result index reads: its row and column, the batch coordinate dropped. -/
def rowOf (i : SRes.Idx) : STab.Idx := fun a => match a with
  | ⟨0, _⟩ => ⟨(i 1).val, (i 1).isLt⟩
  | ⟨1, _⟩ => ⟨(i 2).val, (i 2).isLt⟩

/-- The table repeated along a new leading axis of extent 4. -/
def tiled {α : Type} (t : STab.Idx → α) : SRes.Idx → α := fun i => t (rowOf i)

theorem tiled_apply {α : Type} (t : STab.Idx → α) (i : SRes.Idx) : tiled t i = t (rowOf i) := rfl

@[simp] theorem rowOf_zero (i : SRes.Idx) : ((rowOf i) 0).val = (i 1).val := rfl
@[simp] theorem rowOf_one (i : SRes.Idx) : ((rowOf i) 1).val = (i 2).val := rfl

end Cert.Spec
-- ==== Proof.RefValue.lean ====
/-
  The reference's result is the table repeated four times. The reference inserts a unit leading axis,
  reshapes to rank six, broadcasts the leading axis from extent 1 to extent 4 and reshapes back to rank
  three. A reshape keeps an entry's row-major position and a broadcast along a unit axis reads
  coordinate 0 there, so entry (b, r, e) of the result is entry (r, e) of the table.
-/
import proofs.«210005_g3977139716852_cont_8to1_b_2046_23_alg».proof.Proof.Gen.ReferenceIdeal.Read
import proofs.«210005_g3977139716852_cont_8to1_b_2046_23_alg».proof.Proof.Spec
import Idealize.ShloMosaic.Lib.Pipeline.Value

noncomputable section

namespace Cert.Proof.RefValue

open Cert.ReferenceIdeal Cert.ReferenceIdeal.Gen Cert.ReferenceIdeal.Read Idealize.ShloMosaic

variable {F : FTy → Type} [FloatOps F]

/-- Result index (b, r, e) in the rank-six layout: (b, 0, 0, r, 0, e). -/
def up6 (j : S4x8192x768.Idx) : S4x1x1x8192x1x768.Idx := fun a => match a with
  | ⟨0, _⟩ => ⟨(j 0).val, (j 0).isLt⟩
  | ⟨1, _⟩ => ⟨0, Nat.one_pos⟩
  | ⟨2, _⟩ => ⟨0, Nat.one_pos⟩
  | ⟨3, _⟩ => ⟨(j 1).val, (j 1).isLt⟩
  | ⟨4, _⟩ => ⟨0, Nat.one_pos⟩
  | ⟨5, _⟩ => ⟨(j 2).val, (j 2).isLt⟩

/-- Result index (b, r, e) in the layout with the unit leading axis: (0, r, e). -/
def up3 (j : S4x8192x768.Idx) : S1x8192x768.Idx := fun a => match a with
  | ⟨0, _⟩ => ⟨0, Nat.one_pos⟩
  | ⟨1, _⟩ => ⟨(j 1).val, (j 1).isLt⟩
  | ⟨2, _⟩ => ⟨(j 2).val, (j 2).isLt⟩

theorem pos_up6 (j : S4x8192x768.Idx) : (S4x1x1x8192x1x768.rowMajor (up6 j)).val = (S4x8192x768.rowMajor j).val := by
  rw [Shape.rowMajor_val_six, Shape.rowMajor_val_three]
  show (((((j 0).val * 1 + 0) * 1 + 0) * 8192 + (j 1).val) * 1 + 0) * 768 + (j 2).val = ((j 0).val * 8192 + (j 1).val) * 768 + (j 2).val
  omega

theorem pos_up3 (j : S4x8192x768.Idx) :
    (S1x8192x768.rowMajor (up3 j)).val = (S1x1x1x8192x1x768.rowMajor (idx_main_v2 (up6 j))).val := by
  rw [Shape.rowMajor_val_six, Shape.rowMajor_val_three]
  show (0 * 8192 + (j 1).val) * 768 + (j 2).val = (((((0 * 1 + 0) * 1 + 0) * 8192 + (j 1).val) * 1 + 0) * 768 + (j 2).val)
  omega

/-- The reference's last stage, as a function of the table, is the table repeated. -/
theorem ref_eq (t : (⟨S8192x768, .f32⟩ : BufTy).Contents (Elt F)) :
    val_main_v3 (F := F) t = Cert.Spec.tiled t := by
  funext j
  unfold val_main_v3
  rw [shapeCast_apply _ shapeCasts_S4x1x1x8192x1x768_S4x8192x768 j (up6 j) (pos_up6 j), val_main_v2_apply]
  unfold val_main_v1
  rw [shapeCast_apply _ shapeCasts_S1x8192x768_S1x1x1x8192x1x768 (idx_main_v2 (up6 j)) (up3 j) (pos_up3 j), val_main_v0_apply]
  rfl

end Cert.Proof.RefValue

end
-- ==== Proof.KISetup.lean ====
/-
  The program as the launch theorem reads it, the ghost state, and what each vector subcore is handed and hands back.

  Each of the 32 vector subcores (SparseCore c, subcore s) moves rows 512 s + 256 c + 128 k + [0, 128) of the table,
  for k = 0 and k = 1: a copy of those rows into its own scratch, waited for, then four copies of the scratch into the
  same rows of each of the four batch entries of the result, all four waited for before the scratch is written again.
  So a subcore needs exactly those rows of the table (which it only reads) and those rows of each batch entry of the
  result (which it overwrites): the pieces below, one per (k, array), each a slice as the program takes it. No two
  subcores touch a common element, and no handshake between subcores is needed beyond the launch's own.
-/
import proofs.«210005_g3977139716852_cont_8to1_b_2046_23_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«210005_g3977139716852_cont_8to1_b_2046_23_alg».proof.Proof.Gen.KernelIdeal
import proofs.«210005_g3977139716852_cont_8to1_b_2046_23_alg».proof.Proof.Gen.KernelIdeal.Skeleton
import proofs.«210005_g3977139716852_cont_8to1_b_2046_23_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the slices -/

variable (m : (ℓ : Loc nD τ sig) → Buf (Elt F) ℓ) (ρ : Dev nD → PrngReg)

/-- The unused integer argument, the table and the result, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The table and the result as a vector subcore addresses them, and its scratch. -/
abbrev tW : Memref sig .scVector .hbm S8192x768 .f32 := Memref.whole main_arg1_scv
abbrev oW : Memref sig .scVector .hbm S4x8192x768 .f32 := Memref.whole main_v0_scv
abbrev bW : Memref sig .scVector .vmem S128x768 .f32 := Memref.whole cc0_scratch0

/-- Rows `512 s + 256 c + 128 k + [0, 128)` of the table, as the subcore at `L = (c, s)` slices them in trip `k`. -/
abbrev tSl (L : grid0.Coords) (k : Fin k0_t1_loop.trips) : Memref sig .scVector .hbm S128x768 .f32 :=
  (tW).slice (Rect.unit (s := S8192x768) (k0_off1 L k) S128x768.size (k0_off1_inb L k)) (fun _ => rfl)
/-- The same rows of batch entries 0, 1, 2, 3 of the result, each sliced with a unit leading axis and squeezed. -/
abbrev oSl0 (L : grid0.Coords) (k : Fin k0_t1_loop.trips) : Memref sig .scVector .hbm S128x768 .f32 :=
  ((oW).slice (Rect.unit (s := S4x8192x768) (k0_off2 L k) S1x128x768.size (k0_off2_inb L k)) (fun _ => rfl)).squeeze S128x768 squeezes_S1x128x768_S128x768
abbrev oSl1 (L : grid0.Coords) (k : Fin k0_t1_loop.trips) : Memref sig .scVector .hbm S128x768 .f32 :=
  ((oW).slice (Rect.unit (s := S4x8192x768) (k0_off3 L k) S1x128x768.size (k0_off3_inb L k)) (fun _ => rfl)).squeeze S128x768 squeezes_S1x128x768_S128x768
abbrev oSl2 (L : grid0.Coords) (k : Fin k0_t1_loop.trips) : Memref sig .scVector .hbm S128x768 .f32 :=
  ((oW).slice (Rect.unit (s := S4x8192x768) (k0_off4 L k) S1x128x768.size (k0_off4_inb L k)) (fun _ => rfl)).squeeze S128x768 squeezes_S1x128x768_S128x768
abbrev oSl3 (L : grid0.Coords) (k : Fin k0_t1_loop.trips) : Memref sig .scVector .hbm S128x768 .f32 :=
  ((oW).slice (Rect.unit (s := S4x8192x768) (k0_off5 L k) S1x128x768.size (k0_off5_inb L k)) (fun _ => rfl)).squeeze S128x768 squeezes_S1x128x768_S128x768

/-- The elements of those slices. -/
abbrev tSet (L : grid0.Coords) (k : Fin k0_t1_loop.trips) : Finset S8192x768.Idx := (tSl L k).view.set
abbrev oSet0 (L : grid0.Coords) (k : Fin k0_t1_loop.trips) : Finset S4x8192x768.Idx := (oSl0 L k).view.set
abbrev oSet1 (L : grid0.Coords) (k : Fin k0_t1_loop.trips) : Finset S4x8192x768.Idx := (oSl1 L k).view.set
abbrev oSet2 (L : grid0.Coords) (k : Fin k0_t1_loop.trips) : Finset S4x8192x768.Idx := (oSl2 L k).view.set
abbrev oSet3 (L : grid0.Coords) (k : Fin k0_t1_loop.trips) : Finset S4x8192x768.Idx := (oSl3 L k).view.set

/-- What the result holds at the end: the launch table, repeated. -/
def outG (d : Dev nD) : Buf (Elt F) (oLoc d) := Cert.Spec.tiled (m (tLoc d))

/-- One trip's arrays: its rows of the table at the launch contents, its rows of the four batch entries at `g`. -/
def tripRes (d : Dev nD) (L : grid0.Coords) (k : Fin k0_t1_loop.trips) (g : Buf (Elt F) (oLoc d)) : sProp 𝕄 :=
  iprop((tLoc d ↦[tSet L k]{fullShare} m (tLoc d)) ∗ (oLoc d ↦[oSet0 L k]{fullShare} g) ∗ (oLoc d ↦[oSet1 L k]{fullShare} g)
    ∗ (oLoc d ↦[oSet2 L k]{fullShare} g) ∗ (oLoc d ↦[oSet3 L k]{fullShare} g))

/-- What the subcore at `L` is handed — both trips' arrays, the result's rows at the launch contents — and hands back —
    the same, the result's rows holding the table's. -/
def tileGo (d : Dev nD) (L : grid0.Coords) : sProp 𝕄 := bigSep Finset.univ fun k : Fin k0_t1_loop.trips => tripRes m d L k (m (oLoc d))
def tileTd (d : Dev nD) (L : grid0.Coords) : sProp 𝕄 := bigSep Finset.univ fun k : Fin k0_t1_loop.trips => tripRes m d L k (outG m d)

instance tripRes_storable (d : Dev nD) (L : grid0.Coords) (k : Fin k0_t1_loop.trips) (g : Buf (Elt F) (oLoc d)) :
    BI.Storable (upEmb : UEmb _ 𝕄) (tripRes m d L k g) := by unfold tripRes; infer_instance
instance tileGo_storable (d : Dev nD) (L : grid0.Coords) : BI.Storable (upEmb : UEmb _ 𝕄) (tileGo m d L) := by unfold tileGo; infer_instance
instance tileTd_storable (d : Dev nD) (L : grid0.Coords) : BI.Storable (upEmb : UEmb _ 𝕄) (tileTd m d L) := by unfold tileTd; infer_instance

/-- A grid point from a SparseCore's and a subcore's number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The launch's handshakes carry: to SparseCore `c` its sixteen subcores' arrays, to subcore `i` of it its own; back the
    same with the result's rows written. The kernel's own cells need no state from the launch. -/
def P : (K (F := F)).Pay (nD := nD) (Val := Elt F) (Name := ℕ) (U := UU) where
  st := fun q d c => match q with
    | 0 => bigSep Finset.univ fun i : Fin ((K (F := F)).nSub 0) => tileGo m d (coordsV (Fin.cast nCore_zero c) (Fin.cast nSub_zero i))
  dn := fun q d c => match q with
    | 0 => bigSep Finset.univ fun i : Fin ((K (F := F)).nSub 0) => tileTd m d (coordsV (Fin.cast nCore_zero c) (Fin.cast nSub_zero i))
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KI

end
-- ==== Proof.KIBody.lean ====
/-
  One vector subcore's task. The subcore holds its rows of the table and of the four batch entries of the result
  (both trips'), its scratch and its two DMA semaphores at zero. A trip copies the trip's rows of the table into the
  scratch and waits; then it starts four copies of the scratch, one into the trip's rows of each batch entry, all on
  one semaphore, and waits four times for one copy's amount. Only the last of those waits tells that every copy has
  landed (amounts of different copies may have added up before), and that is when the four destinations come back:
  each holds what the scratch held, which is the trip's rows of the table. The loop's invariant before trip n: the
  rows of the trips before n hold the table's rows, the others their launch contents.
-/
import proofs.«210005_g3977139716852_cont_8to1_b_2046_23_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
/-- The subcore's thread. -/
abbrev thrV (d : Dev nD) (L : grid0.Coords) : Thread nD τ := V d (cV L) (jV L)

/-- The semaphore of the four copies out of the scratch, and the one of the copy into it. -/
abbrev cOut (d : Dev nD) (L : grid0.Coords) : GSem nD τ sig := (thrV d L, .dma cc0_scratch1.sem)
abbrev cIn (d : Dev nD) (L : grid0.Coords) : GSem nD τ sig := (thrV d L, .dma cc0_scoped0.sem)

theorem ownSems0_V :
    (ownSems0 (thrV d L) : sProp 𝕄)
      = iprop(semVal (cOut d L) 0 ∗ semVal (cIn d L) 0
          ∗ bigSep (((ownCells (thrV d L)).erase (cOut d L)).erase (cIn d L)) fun g => semVal g 0) := by
  unfold SparseCore.Cfg.ownSems0
  rw [SparseCore.bigSep_erase' ((mem_ownCells (g := cOut d L)).mpr ⟨rfl, by
      show (SemLoc.dma cc0_scratch1.sem : SemLoc sig).isScoped .scVector = true; decide⟩),
    SparseCore.bigSep_erase' (Finset.mem_erase.mpr ⟨by simp [cOut, cIn]; decide, (mem_ownCells (g := cIn d L)).mpr ⟨rfl, by
      show (SemLoc.dma cc0_scoped0.sem : SemLoc sig).isScoped .scVector = true; decide⟩⟩)]

/-- The scratch is among the subcore's own buffers: it, at some contents, and the rest. -/
theorem ownBufs_V :
    (ownBufs (thrV d L) : sProp 𝕄)
      = iprop((∃ f, (thrV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

/-- A piece of the table or of the result, held by a slice's own elements, is the slice as the subcore addresses it. -/
theorem pts_t (k : Fin k0_t1_loop.trips) (f : Buf (Elt F) (tLoc d)) :
    ((tSl L k).view.loc (thrV d L) ↦[(tSl L k).view.set]{fullShare} f : sProp 𝕄) = tLoc d ↦[tSet L k]{fullShare} f := rfl
theorem pts_o0 (k : Fin k0_t1_loop.trips) (f : Buf (Elt F) (oLoc d)) :
    ((oSl0 L k).view.loc (thrV d L) ↦[(oSl0 L k).view.set]{fullShare} f : sProp 𝕄) = oLoc d ↦[oSet0 L k]{fullShare} f := rfl
theorem pts_o1 (k : Fin k0_t1_loop.trips) (f : Buf (Elt F) (oLoc d)) :
    ((oSl1 L k).view.loc (thrV d L) ↦[(oSl1 L k).view.set]{fullShare} f : sProp 𝕄) = oLoc d ↦[oSet1 L k]{fullShare} f := rfl
theorem pts_o2 (k : Fin k0_t1_loop.trips) (f : Buf (Elt F) (oLoc d)) :
    ((oSl2 L k).view.loc (thrV d L) ↦[(oSl2 L k).view.set]{fullShare} f : sProp 𝕄) = oLoc d ↦[oSet2 L k]{fullShare} f := rfl
theorem pts_o3 (k : Fin k0_t1_loop.trips) (f : Buf (Elt F) (oLoc d)) :
    ((oSl3 L k).view.loc (thrV d L) ↦[(oSl3 L k).view.set]{fullShare} f : sProp 𝕄) = oLoc d ↦[oSet3 L k]{fullShare} f := rfl

/-- Before the first trip no rows are written; after the last all are. -/
theorem rows_before_first :
    (bigSep Finset.univ fun k : Fin k0_t1_loop.trips => tripRes m d L k (if k.val < 0 then outG m d else m (oLoc d))) = tileGo m d L := by
  unfold tileGo
  exact bigSep_congr fun k _ => by rw [if_neg (Nat.not_lt_zero _)]
theorem rows_after_last :
    (bigSep Finset.univ fun k : Fin k0_t1_loop.trips => tripRes m d L k (if k.val < k0_t1_loop.trips then outG m d else m (oLoc d))) = tileTd m d L := by
  unfold tileTd
  exact bigSep_congr fun k _ => by rw [if_pos k.isLt]

/-- The scratch, as the subcore's own buffer and as the program addresses it. -/
theorem pts_b (f : Buf (Elt F) ((thrV d L).loc cc0_scratch0)) :
    ((bW).view.loc (thrV d L) ↦{fullShare} f : sProp 𝕄) = (thrV d L).loc cc0_scratch0 ↦{fullShare} f := rfl

/-- One trip's arrays, spelt out. -/
theorem tripRes_def (k : Fin k0_t1_loop.trips) (g : Buf (Elt F) (oLoc d)) :
    tripRes m d L k g = iprop((tLoc d ↦[tSet L k]{fullShare} m (tLoc d)) ∗ (oLoc d ↦[oSet0 L k]{fullShare} g) ∗ (oLoc d ↦[oSet1 L k]{fullShare} g)
      ∗ (oLoc d ↦[oSet2 L k]{fullShare} g) ∗ (oLoc d ↦[oSet3 L k]{fullShare} g)) := rfl

/-- Before trip `k`, trip `k`'s own rows are still at their launch contents; the other trips' stand apart. -/
theorem trip_open (k : Fin k0_t1_loop.trips) :
    (bigSep Finset.univ fun j : Fin k0_t1_loop.trips => tripRes m d L j (if j.val < k.val then outG m d else m (oLoc d)))
      = iprop(tripRes m d L k (m (oLoc d))
          ∗ bigSep (Finset.univ.erase k) fun j : Fin k0_t1_loop.trips => tripRes m d L j (if j.val < k.val then outG m d else m (oLoc d))) := by
  rw [SparseCore.bigSep_erase' (Finset.mem_univ k), if_neg (Nat.lt_irrefl _)]
/-- Once trip `k`'s rows are written, the rows of the trips before `k + 1` are. -/
theorem trip_close (k : Fin k0_t1_loop.trips) :
    (bigSep Finset.univ fun j : Fin k0_t1_loop.trips => tripRes m d L j (if j.val < k.val + 1 then outG m d else m (oLoc d)))
      = iprop(tripRes m d L k (outG m d)
          ∗ bigSep (Finset.univ.erase k) fun j : Fin k0_t1_loop.trips => tripRes m d L j (if j.val < k.val then outG m d else m (oLoc d))) := by
  rw [SparseCore.bigSep_erase' (Finset.mem_univ k), if_pos (Nat.lt_succ_self _)]
  congr 1
  refine bigSep_congr fun j hj => ?_
  have hne : j.val ≠ k.val := fun e => (Finset.mem_erase.mp hj).1 (Fin.ext e)
  by_cases h : j.val < k.val
  · rw [if_pos h, if_pos (Nat.lt_succ_of_lt h)]
  · rw [if_neg h, if_neg (by omega)]

/-- The loop's invariant before trip `n`. -/
def inv (O : CellTallies nD τ sig (HIx 1)) (W : Waits sig (HIx 1)) (n : Nat) (_ : PUnit) : sProp 𝕄 :=
  iprop(Transfers.MayWaits (thrV d L) (none : HIx 1) O
    ∗ (bigSep Finset.univ fun k : Fin k0_t1_loop.trips => tripRes m d L k (if k.val < n then outG m d else m (oLoc d)))
    ∗ (∃ f, (bW).view.loc (thrV d L) ↦{fullShare} f)
    ∗ semVal (cOut d L) 0 ∗ semVal (cIn d L) 0
    ∗ ∃ W', ⌜∀ p ∈ W', p ∈ W ∨ p.2 = none⌝ ∗ owes (thrV d L) O W')

/-- The unit leading axis put back on an index of a 128 × 768 block: (r, e) is (0, r, e). -/
def up1 (y : S128x768.Idx) : S1x128x768.Idx := fun a => match a with
  | ⟨0, _⟩ => ⟨0, Nat.one_pos⟩
  | ⟨1, _⟩ => ⟨(y 0).val, (y 0).isLt⟩
  | ⟨2, _⟩ => ⟨(y 1).val, (y 1).isLt⟩

/-- Dropping a unit leading axis keeps row-major positions, so it matches (r, e) with (0, r, e). -/
theorem squeeze_idx (h : S128x768.numel = S1x128x768.numel) (y : S128x768.Idx) : Shape.reshapeEquiv h y = up1 y :=
  Shape.reshapeEquiv_eq_of_rowMajor h (by
    rw [Shape.rowMajor_val_three, Shape.rowMajor_val_two]
    show (0 * 128 + (y 0).val) * 768 + (y 1).val = (y 0).val * 768 + (y 1).val
    omega)

/-! The table entry a result element reads is the table's element at the same place of the trip's block: the block of
    batch entry b starts at row `512 s + 256 c + 128 k` of that entry, the table's block at the same row. -/

theorem row_o0 (k : Fin k0_t1_loop.trips) (y : S128x768.Idx) : Cert.Spec.rowOf ((oSl0 L k).view.emb y) = (tSl L k).view.emb y := by
  have e : (oSl0 L k).view.emb y = (Rect.unit (s := S4x8192x768) (k0_off2 L k) S1x128x768.size (k0_off2_inb L k)).emb (up1 y) := by
    show (Rect.unit (s := S4x8192x768) (k0_off2 L k) S1x128x768.size (k0_off2_inb L k)).emb (Shape.reshapeEquiv _ y) = _
    rw [squeeze_idx]
  funext a; apply Fin.ext
  match a with
  | ⟨0, _⟩ =>
    show ((oSl0 L k).view.emb y 1).val = ((tSl L k).view.emb y 0).val
    rw [e]
    show (k0_off2 L k) 1 + 1 * (y 0).val = (k0_off1 L k) 0 + 1 * (y 0).val
    rw [k0_off2_eq, k0_off1_eq]; rfl
  | ⟨1, _⟩ =>
    show ((oSl0 L k).view.emb y 2).val = ((tSl L k).view.emb y 1).val
    rw [e]
    show (k0_off2 L k) 2 + 1 * (y 1).val = (k0_off1 L k) 1 + 1 * (y 1).val
    rw [k0_off2_eq, k0_off1_eq]; rfl

/-- Batch entry 0's rows, once the scratch has landed in them, hold the table's rows on every element of theirs. -/
theorem landed_o0 (k : Fin k0_t1_loop.trips) (P : S128x768.Idx → Elt F .f32) (hP : ∀ y, P y = m (tLoc d) ((tSl L k).view.emb y)) :
    ∀ i ∈ (oSl0 L k).view.set, (oSl0 L k).view.writes (Elt F) (m (oLoc d)) [⟨Rect.whole S128x768, P⟩] i = outG m d i := by
  intro i hi
  obtain ⟨y, -, rfl⟩ := Finset.mem_map.mp hi
  have h := congrFun (View.read_writes_whole (oSl0 L k).view (m (oLoc d)) P) y
  rw [View.read_apply, cast_eq] at h
  refine h.trans ?_
  rw [hP]
  show _ = Cert.Spec.tiled (m (tLoc d)) _
  rw [Cert.Spec.tiled_apply, row_o0]

theorem row_o1 (k : Fin k0_t1_loop.trips) (y : S128x768.Idx) : Cert.Spec.rowOf ((oSl1 L k).view.emb y) = (tSl L k).view.emb y := by
  have e : (oSl1 L k).view.emb y = (Rect.unit (s := S4x8192x768) (k0_off3 L k) S1x128x768.size (k0_off3_inb L k)).emb (up1 y) := by
    show (Rect.unit (s := S4x8192x768) (k0_off3 L k) S1x128x768.size (k0_off3_inb L k)).emb (Shape.reshapeEquiv _ y) = _
    rw [squeeze_idx]
  funext a; apply Fin.ext
  match a with
  | ⟨0, _⟩ =>
    show ((oSl1 L k).view.emb y 1).val = ((tSl L k).view.emb y 0).val
    rw [e]
    show (k0_off3 L k) 1 + 1 * (y 0).val = (k0_off1 L k) 0 + 1 * (y 0).val
    rw [k0_off3_eq, k0_off1_eq]; rfl
  | ⟨1, _⟩ =>
    show ((oSl1 L k).view.emb y 2).val = ((tSl L k).view.emb y 1).val
    rw [e]
    show (k0_off3 L k) 2 + 1 * (y 1).val = (k0_off1 L k) 1 + 1 * (y 1).val
    rw [k0_off3_eq, k0_off1_eq]; rfl

/-- Batch entry 1's rows, once the scratch has landed in them, hold the table's rows on every element of theirs. -/
theorem landed_o1 (k : Fin k0_t1_loop.trips) (P : S128x768.Idx → Elt F .f32) (hP : ∀ y, P y = m (tLoc d) ((tSl L k).view.emb y)) :
    ∀ i ∈ (oSl1 L k).view.set, (oSl1 L k).view.writes (Elt F) (m (oLoc d)) [⟨Rect.whole S128x768, P⟩] i = outG m d i := by
  intro i hi
  obtain ⟨y, -, rfl⟩ := Finset.mem_map.mp hi
  have h := congrFun (View.read_writes_whole (oSl1 L k).view (m (oLoc d)) P) y
  rw [View.read_apply, cast_eq] at h
  refine h.trans ?_
  rw [hP]
  show _ = Cert.Spec.tiled (m (tLoc d)) _
  rw [Cert.Spec.tiled_apply, row_o1]

theorem row_o2 (k : Fin k0_t1_loop.trips) (y : S128x768.Idx) : Cert.Spec.rowOf ((oSl2 L k).view.emb y) = (tSl L k).view.emb y := by
  have e : (oSl2 L k).view.emb y = (Rect.unit (s := S4x8192x768) (k0_off4 L k) S1x128x768.size (k0_off4_inb L k)).emb (up1 y) := by
    show (Rect.unit (s := S4x8192x768) (k0_off4 L k) S1x128x768.size (k0_off4_inb L k)).emb (Shape.reshapeEquiv _ y) = _
    rw [squeeze_idx]
  funext a; apply Fin.ext
  match a with
  | ⟨0, _⟩ =>
    show ((oSl2 L k).view.emb y 1).val = ((tSl L k).view.emb y 0).val
    rw [e]
    show (k0_off4 L k) 1 + 1 * (y 0).val = (k0_off1 L k) 0 + 1 * (y 0).val
    rw [k0_off4_eq, k0_off1_eq]; rfl
  | ⟨1, _⟩ =>
    show ((oSl2 L k).view.emb y 2).val = ((tSl L k).view.emb y 1).val
    rw [e]
    show (k0_off4 L k) 2 + 1 * (y 1).val = (k0_off1 L k) 1 + 1 * (y 1).val
    rw [k0_off4_eq, k0_off1_eq]; rfl

/-- Batch entry 2's rows, once the scratch has landed in them, hold the table's rows on every element of theirs. -/
theorem landed_o2 (k : Fin k0_t1_loop.trips) (P : S128x768.Idx → Elt F .f32) (hP : ∀ y, P y = m (tLoc d) ((tSl L k).view.emb y)) :
    ∀ i ∈ (oSl2 L k).view.set, (oSl2 L k).view.writes (Elt F) (m (oLoc d)) [⟨Rect.whole S128x768, P⟩] i = outG m d i := by
  intro i hi
  obtain ⟨y, -, rfl⟩ := Finset.mem_map.mp hi
  have h := congrFun (View.read_writes_whole (oSl2 L k).view (m (oLoc d)) P) y
  rw [View.read_apply, cast_eq] at h
  refine h.trans ?_
  rw [hP]
  show _ = Cert.Spec.tiled (m (tLoc d)) _
  rw [Cert.Spec.tiled_apply, row_o2]

theorem row_o3 (k : Fin k0_t1_loop.trips) (y : S128x768.Idx) : Cert.Spec.rowOf ((oSl3 L k).view.emb y) = (tSl L k).view.emb y := by
  have e : (oSl3 L k).view.emb y = (Rect.unit (s := S4x8192x768) (k0_off5 L k) S1x128x768.size (k0_off5_inb L k)).emb (up1 y) := by
    show (Rect.unit (s := S4x8192x768) (k0_off5 L k) S1x128x768.size (k0_off5_inb L k)).emb (Shape.reshapeEquiv _ y) = _
    rw [squeeze_idx]
  funext a; apply Fin.ext
  match a with
  | ⟨0, _⟩ =>
    show ((oSl3 L k).view.emb y 1).val = ((tSl L k).view.emb y 0).val
    rw [e]
    show (k0_off5 L k) 1 + 1 * (y 0).val = (k0_off1 L k) 0 + 1 * (y 0).val
    rw [k0_off5_eq, k0_off1_eq]; rfl
  | ⟨1, _⟩ =>
    show ((oSl3 L k).view.emb y 2).val = ((tSl L k).view.emb y 1).val
    rw [e]
    show (k0_off5 L k) 2 + 1 * (y 1).val = (k0_off1 L k) 1 + 1 * (y 1).val
    rw [k0_off5_eq, k0_off1_eq]; rfl

/-- Batch entry 3's rows, once the scratch has landed in them, hold the table's rows on every element of theirs. -/
theorem landed_o3 (k : Fin k0_t1_loop.trips) (P : S128x768.Idx → Elt F .f32) (hP : ∀ y, P y = m (tLoc d) ((tSl L k).view.emb y)) :
    ∀ i ∈ (oSl3 L k).view.set, (oSl3 L k).view.writes (Elt F) (m (oLoc d)) [⟨Rect.whole S128x768, P⟩] i = outG m d i := by
  intro i hi
  obtain ⟨y, -, rfl⟩ := Finset.mem_map.mp hi
  have h := congrFun (View.read_writes_whole (oSl3 L k).view (m (oLoc d)) P) y
  rw [View.read_apply, cast_eq] at h
  refine h.trans ?_
  rw [hP]
  show _ = Cert.Spec.tiled (m (tLoc d)) _
  rw [Cert.Spec.tiled_apply, row_o3]

/-- What the scratch hands the four copies: it was filled whole from the trip's rows of the table, so at `y` it is the
    table's entry under `y` of those rows. -/
theorem payload_eq (k : Fin k0_t1_loop.trips) (f : Buf (Elt F) ((bW).view.loc (thrV d L))) (y : S128x768.Idx) :
    ReadAs.same.apply ((bW).view.read (Elt F) ((bW).view.write (Elt F) f (ReadAs.same.apply ((tSl L k).view.read (Elt F) (m (tLoc d)))) Finset.univ)) y
      = m (tLoc d) ((tSl L k).view.emb y) := by
  rw [ReadAs.apply_same, View.read_write_univ, ReadAs.apply_same, View.read_apply, cast_eq]

omit [FloatOps F] in
/-- A wait recorded at the kernel's own index keeps the record within what the launch allows. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- One trip, from the invariant before it to the invariant after it. -/
theorem trip_step (O : CellTallies nD τ sig (HIx 1)) (W : Waits sig (HIx 1)) (v2 : BitVec 32) (k : Fin k0_t1_loop.trips) (acc : PUnit) :
    inv m d L O W k.val acc
      ⊢ wp frame (wpE (defs₀ (F := F)) 𝒱₀ (thrV d L) none) Set.univ
          (k0_t1_body L tW (Memref.isWhole_whole _) oW (Memref.isWhole_whole _) bW (Memref.isWhole_whole _) cc0_scratch1 cc0_scoped0 v2 k acc)
          (inv m d L O W (k.val + 1)) := by
  have _plan : Transfers.BatchOf (thrV d L) (SemLoc.dma (sig := sig) cc0_scratch1.sem) 4 (windows := true) := trivial
  unfold inv
  rw [trip_open (F := F) m d L k, trip_close (F := F) m d L k, tripRes_def (F := F) m d L k (m (oLoc d))]
  iintro ⟨Hmw, ⟨⟨Ht, Ho0, Ho1, Ho2, Ho3⟩, Hrest⟩, ⟨%f, Hb⟩, HsemO, HsemI, %W', %hW', HO⟩
  ihave Ht' := (Entails.of_eq (pts_t (F := F) d L k _).symm) $$ Ht
  ihave Ho0' := (Entails.of_eq (pts_o0 (F := F) d L k _).symm) $$ Ho0
  ihave Ho1' := (Entails.of_eq (pts_o1 (F := F) d L k _).symm) $$ Ho1
  ihave Ho2' := (Entails.of_eq (pts_o2 (F := F) d L k _).symm) $$ Ho2
  ihave Ho3' := (Entails.of_eq (pts_o3 (F := F) d L k _).symm) $$ Ho3
  sl_exec
  sl_step
  ihave Hn0 := (Entails.of_eq ((pointsTo_congr (landed_o0 (F := F) m d L k (trip_step.sl.dma1 m d L k f) (payload_eq (F := F) m d L k f))).trans (pts_o0 (F := F) d L k _))) $$ Ho0'
  ihave Hn1 := (Entails.of_eq ((pointsTo_congr (landed_o1 (F := F) m d L k (trip_step.sl.dma1 m d L k f) (payload_eq (F := F) m d L k f))).trans (pts_o1 (F := F) d L k _))) $$ Ho1'
  ihave Hn2 := (Entails.of_eq ((pointsTo_congr (landed_o2 (F := F) m d L k (trip_step.sl.dma1 m d L k f) (payload_eq (F := F) m d L k f))).trans (pts_o2 (F := F) d L k _))) $$ Ho2'
  ihave Hn3 := (Entails.of_eq ((pointsTo_congr (landed_o3 (F := F) m d L k (trip_step.sl.dma1 m d L k f) (payload_eq (F := F) m d L k f))).trans (pts_o3 (F := F) d L k _))) $$ Ho3'
  ihave Htn := (Entails.of_eq (pts_t (F := F) d L k _)) $$ Ht'
  isplitl [Hmw]; · iexact Hmw
  isplitl [Htn Hn0 Hn1 Hn2 Hn3 Hrest]
  · isplitl [Htn Hn0 Hn1 Hn2 Hn3]
    · iapply (Entails.of_eq (tripRes_def (F := F) m d L k (outG m d)).symm)
      isplitl [Htn]; · iexact Htn
      isplitl [Hn0]; · iexact Hn0
      isplitl [Hn1]; · iexact Hn1
      isplitl [Hn2]; · iexact Hn2
      iexact Hn3
    · iexact Hrest
  isplitl [Hb]; · iexists _; iexact Hb
  isplitl [HsemO]; · iexact HsemO
  isplitl [HsemI]; · iexact HsemI
  iexists _; isplitr
  rotate_left
  · iexact HO
  · ipureintro; exact waits_insert (waits_insert (waits_insert (waits_insert (waits_insert hW'))))

/-- The task on the subcore at `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (thrV d L) ∗ scopedSems0 (thrV d L) ∗ owes (thrV d L) O W)
      ⊢ wp frame (wpE (defs₀ (F := F)) 𝒱₀ (thrV d L) none) Set.univ
          (cc0__sc_bcast L tW (Memref.isWhole_whole _) oW (Memref.isWhole_whole _) bW (Memref.isWhole_whole _) cc0_scratch1 cc0_scoped0)
          fun _ => iprop(tileTd m d L ∗ scopedBufs (thrV d L) ∗ scopedSems0 (thrV d L)
            ∗ ∃ W', ⌜∀ p ∈ W', p ∈ W ∨ p.2 = none⌝ ∗ owes (thrV d L) O W') := by
  simp only [cc0__sc_bcast_eq_skeleton]; unfold cc0__sc_bcast_skel
  rw [(K (F := F)).scopedBufs_V hF d (cV L) (jV L), SparseCore.Cfg.scopedSems0_V (Val := Elt F) d (cV L) (jV L), ownSems0_V, ownBufs_V]
  iintro ⟨#Hlv, -, Hgo, ⟨⟨%fb, Hbuf⟩, Hbufs⟩, ⟨HsemO, HsemI, Hsems⟩, HO⟩
  ihave Hmw := ((K (F := F)).mayWaits_none (thr := thrV d L) hO) $$ Hlv
  ihave Hbuf' := (Entails.of_eq (pts_b (F := F) d L _).symm) $$ Hbuf
  sl_exec
  sl_for (inv m d L O W) $$ [Hmw Hgo Hbuf' HsemO HsemI HO]
  case region =>
    intro k _
    exact trip_step m d L O W _ k _
  · unfold inv
    isplitl [Hmw]; · iexact Hmw
    isplitl [Hgo]
    · iapply (Entails.of_eq (rows_before_first (F := F) m d L).symm); iexact Hgo
    isplitl [Hbuf']; · iexists _; iexact Hbuf'
    isplitl [HsemO]; · iexact HsemO
    isplitl [HsemI]; · iexact HsemI
    iexists W; isplitr
    · ipureintro; exact fun p hp => .inl hp
    · iexact HO
  iintro %_ HI
  unfold inv
  icases HI with ⟨-, Htd, ⟨%f, Hb⟩, HsemO, HsemI, %W', %hW', HO⟩
  sl_exec
  sl_step
  isplitl [Htd]
  · iapply (Entails.of_eq (rows_after_last (F := F) m d L)); iexact Htd
  isplitl [Hb Hbufs]
  · isplitl [Hb]; · iexists _; iapply (Entails.of_eq (pts_b (F := F) d L _)); iexact Hb
    iexact Hbufs
  isplitl [HsemO HsemI Hsems]
  · isplitl [HsemO]; · iexact HsemO
    isplitl [HsemI]; · iexact HsemI
    iexact Hsems
  iexists W'; isplitr
  · ipureintro; exact hW'
  · iexact HO

end Tile

end Cert.Proof.KI

end
-- ==== Proof.KISplit.lean ====
/-
  How the table and the result split among the 64 blocks. Block (c, s, k) — SparseCore c, subcore s, trip k — is rows
  128 n + [0, 128) for n = 4 s + 2 c + k, and n runs over 0 … 63 exactly once as (c, s, k) runs over 2 × 16 × 2: the
  blocks are pairwise disjoint and cover the 8192 rows. So the table whole is the blocks' pieces of it, and the result
  whole is, for each of its four batch entries, the blocks' pieces of that entry. This is what @main hands the two
  SparseCores at the call and what it gets back.
-/
import proofs.«210005_g3977139716852_cont_8to1_b_2046_23_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-! ## Blocks by number -/

/-- A block: SparseCore, subcore, trip. -/
abbrev J : Type := Fin 2 × Fin 16 × Fin k0_t1_loop.trips
/-- Its grid point. -/
abbrev LJ (j : J) : grid0.Coords := coordsV j.1 j.2.1

theorem trips_two : k0_t1_loop.trips = 2 := by decide +kernel

/-- The first row of the block the subcore at `L` moves in trip `k`. -/
def row0 (L : grid0.Coords) (k : Fin k0_t1_loop.trips) : ℕ := 512 * (L 1).val + 256 * (L 0).val + 128 * k.val
def row0J (j : J) : ℕ := 512 * j.2.1.val + 256 * j.1.val + 128 * j.2.2.val
theorem row0_LJ (j : J) : row0 (LJ j) j.2.2 = row0J j := rfl

theorem J_ext {j j' : J} (h : j.1.val = j'.1.val ∧ j.2.1.val = j'.2.1.val ∧ j.2.2.val = j'.2.2.val) : j = j' :=
  Prod.ext (Fin.ext h.1) (Prod.ext (Fin.ext h.2.1) (Fin.ext h.2.2))

/-- Two blocks that share a row are one block. -/
theorem row0J_inj (j j' : J) (r : ℕ) (h : row0J j ≤ r ∧ r < row0J j + 128) (h' : row0J j' ≤ r ∧ r < row0J j' + 128) :
    j.1.val = j'.1.val ∧ j.2.1.val = j'.2.1.val ∧ j.2.2.val = j'.2.2.val := by
  have h1 := j.1.isLt; have h2 := j.2.1.isLt; have h3 : j.2.2.val < 2 := lt_of_lt_of_eq j.2.2.isLt trips_two
  have h1' := j'.1.isLt; have h2' := j'.2.1.isLt; have h3' : j'.2.2.val < 2 := lt_of_lt_of_eq j'.2.2.isLt trips_two
  unfold row0J at h h'
  omega

/-- The block that holds row `r`. -/
def jOf (r : ℕ) (hr : r < 8192) : J :=
  (⟨r % 512 / 256, by omega⟩, ⟨r / 512, by omega⟩, ⟨r % 256 / 128, by rw [trips_two]; omega⟩)
theorem row0J_jOf (r : ℕ) (hr : r < 8192) : row0J (jOf r hr) ≤ r ∧ r < row0J (jOf r hr) + 128 := by
  show 512 * (r / 512) + 256 * (r % 512 / 256) + 128 * (r % 256 / 128) ≤ r ∧ r < 512 * (r / 512) + 256 * (r % 512 / 256) + 128 * (r % 256 / 128) + 128
  omega

/-! ## The slices' elements -/

theorem tSet_eq (L : grid0.Coords) (k : Fin k0_t1_loop.trips) :
    tSet L k = (Rect.unit (s := S8192x768) (k0_off1 L k) S128x768.size (k0_off1_inb L k)).set := by
  show ((View.whole (main_arg1_scv : Ref sig .scVector)).slice (Rect.unit (s := S8192x768) (k0_off1 L k) S128x768.size (k0_off1_inb L k))).set = _
  rw [View.set_slice]; exact Finset.map_refl

/-- An element of the table is in the block iff its row is. -/
theorem mem_tSet (L : grid0.Coords) (k : Fin k0_t1_loop.trips) (x : S8192x768.Idx) :
    x ∈ tSet L k ↔ row0 L k ≤ (x 0).val ∧ (x 0).val < row0 L k + 128 := by
  rw [tSet_eq, Rect.mem_set_unit]
  have e := k0_off1_eq L k
  constructor
  · intro h
    have h0 := h 0
    rw [e] at h0
    exact h0
  · intro h a
    rw [e]
    match a with
    | ⟨0, _⟩ => exact h
    | ⟨1, _⟩ => exact ⟨Nat.zero_le _, by have h1 : (x 1).val < 768 := (x 1).isLt; show (x 1).val < 0 + 768; omega⟩

/-- An element of the result is in a block of batch entry `b` iff its batch coordinate is `b` and its row is in the block. -/
theorem mem_unit3 (off : Fin 3 → ℕ) (inb : ∀ a, off a + S1x128x768.size a ≤ S4x8192x768.size a) (b R : ℕ) (e : off = ![b, R, 0]) (x : S4x8192x768.Idx) :
    x ∈ (Rect.unit (s := S4x8192x768) off S1x128x768.size inb).set ↔ (x 0).val = b ∧ R ≤ (x 1).val ∧ (x 1).val < R + 128 := by
  subst e
  rw [Rect.mem_set_unit]
  constructor
  · intro h
    have h0 : b ≤ (x 0).val ∧ (x 0).val < b + 1 := h 0
    have h1 : R ≤ (x 1).val ∧ (x 1).val < R + 128 := h 1
    exact ⟨by omega, h1⟩
  · intro h a
    match a with
    | ⟨0, _⟩ => exact (show b ≤ (x 0).val ∧ (x 0).val < b + 1 by omega)
    | ⟨1, _⟩ => exact h.2
    | ⟨2, _⟩ => exact ⟨Nat.zero_le _, by have h2 : (x 2).val < 768 := (x 2).isLt; show (x 2).val < 0 + 768; omega⟩

/-- Batch entry `b` of the result. -/
def batchSet (b : ℕ) : Finset S4x8192x768.Idx := Finset.univ.filter fun x => (x 0).val = b
theorem mem_batchSet (b : ℕ) (x : S4x8192x768.Idx) : x ∈ batchSet b ↔ (x 0).val = b := by
  unfold batchSet; rw [Finset.mem_filter]; exact ⟨fun h => h.2, fun h => ⟨Finset.mem_univ _, h⟩⟩

section

variable (d : Dev nD)

theorem disjoint_t : ∀ j ∈ (Finset.univ : Finset J), ∀ j' ∈ (Finset.univ : Finset J), j ≠ j' →
    Disjoint (tSet (LJ j) j.2.2) (tSet (LJ j') j'.2.2) := by
  intro j _ j' _ hne
  refine Finset.disjoint_left.mpr fun x h1 h2 => hne ?_
  have h1 := (mem_tSet _ _ x).mp h1
  have h2 := (mem_tSet _ _ x).mp h2
  exact J_ext (row0J_inj j j' (x 0).val (by rwa [row0_LJ] at h1) (by rwa [row0_LJ] at h2))
theorem cover_t : (Finset.univ : Finset J).biUnion (fun j => tSet (LJ j) j.2.2) = Finset.univ := by
  ext x
  simp only [Finset.mem_biUnion, Finset.mem_univ, true_and, iff_true]
  have hr : (x 0).val < 8192 := (x 0).isLt
  exact ⟨jOf (x 0).val hr, (mem_tSet _ _ x).mpr (by rw [row0_LJ]; exact row0J_jOf _ hr)⟩
/-- The table whole is its 64 blocks. -/
theorem tPts (f : Buf (Elt F) (tLoc d)) :
    (tLoc d ↦{fullShare} f : sProp 𝕄) = bigSep (Finset.univ : Finset J) fun j => tLoc d ↦[tSet (LJ j) j.2.2]{fullShare} f := by
  rw [← pointsTo_biUnion Finset.univ (ℓ := tLoc d) (fun j : J => tSet (LJ j) j.2.2) disjoint_t, cover_t]; try rfl

theorem oSet0_eq (L : grid0.Coords) (k : Fin k0_t1_loop.trips) :
    oSet0 L k = (Rect.unit (s := S4x8192x768) (k0_off2 L k) S1x128x768.size (k0_off2_inb L k)).set := by
  show (((View.whole (main_v0_scv : Ref sig .scVector)).slice (Rect.unit (s := S4x8192x768) (k0_off2 L k) S1x128x768.size (k0_off2_inb L k))).reshape
    S128x768 squeezes_S1x128x768_S128x768.numel_eq).set = _
  rw [View.set_reshape, View.set_slice]; exact Finset.map_refl
theorem mem_oSet0 (L : grid0.Coords) (k : Fin k0_t1_loop.trips) (x : S4x8192x768.Idx) :
    x ∈ oSet0 L k ↔ (x 0).val = 0 ∧ row0 L k ≤ (x 1).val ∧ (x 1).val < row0 L k + 128 := by
  rw [oSet0_eq]; exact mem_unit3 _ _ 0 (row0 L k) (k0_off2_eq L k) x
theorem disjoint_o0 : ∀ j ∈ (Finset.univ : Finset J), ∀ j' ∈ (Finset.univ : Finset J), j ≠ j' →
    Disjoint (oSet0 (LJ j) j.2.2) (oSet0 (LJ j') j'.2.2) := by
  intro j _ j' _ hne
  refine Finset.disjoint_left.mpr fun x h1 h2 => hne ?_
  obtain ⟨-, h1⟩ := (mem_oSet0 _ _ x).mp h1
  obtain ⟨-, h2⟩ := (mem_oSet0 _ _ x).mp h2
  exact J_ext (row0J_inj j j' (x 1).val (by rwa [row0_LJ] at h1) (by rwa [row0_LJ] at h2))
theorem cover_o0 : (Finset.univ : Finset J).biUnion (fun j => oSet0 (LJ j) j.2.2) = batchSet 0 := by
  ext x
  simp only [Finset.mem_biUnion, Finset.mem_univ, true_and, mem_batchSet]
  constructor
  · rintro ⟨j, hj⟩; exact ((mem_oSet0 _ _ x).mp hj).1
  · intro hb
    have hr : (x 1).val < 8192 := (x 1).isLt
    exact ⟨jOf (x 1).val hr, (mem_oSet0 _ _ x).mpr ⟨hb, by rw [row0_LJ]; exact row0J_jOf _ hr⟩⟩
theorem oPts0 (g : Buf (Elt F) (oLoc d)) :
    (oLoc d ↦[batchSet 0]{fullShare} g : sProp 𝕄) = bigSep (Finset.univ : Finset J) fun j => oLoc d ↦[oSet0 (LJ j) j.2.2]{fullShare} g := by
  rw [← pointsTo_biUnion Finset.univ (ℓ := oLoc d) (fun j : J => oSet0 (LJ j) j.2.2) disjoint_o0, cover_o0]

theorem oSet1_eq (L : grid0.Coords) (k : Fin k0_t1_loop.trips) :
    oSet1 L k = (Rect.unit (s := S4x8192x768) (k0_off3 L k) S1x128x768.size (k0_off3_inb L k)).set := by
  show (((View.whole (main_v0_scv : Ref sig .scVector)).slice (Rect.unit (s := S4x8192x768) (k0_off3 L k) S1x128x768.size (k0_off3_inb L k))).reshape
    S128x768 squeezes_S1x128x768_S128x768.numel_eq).set = _
  rw [View.set_reshape, View.set_slice]; exact Finset.map_refl
theorem mem_oSet1 (L : grid0.Coords) (k : Fin k0_t1_loop.trips) (x : S4x8192x768.Idx) :
    x ∈ oSet1 L k ↔ (x 0).val = 1 ∧ row0 L k ≤ (x 1).val ∧ (x 1).val < row0 L k + 128 := by
  rw [oSet1_eq]; exact mem_unit3 _ _ 1 (row0 L k) (k0_off3_eq L k) x
theorem disjoint_o1 : ∀ j ∈ (Finset.univ : Finset J), ∀ j' ∈ (Finset.univ : Finset J), j ≠ j' →
    Disjoint (oSet1 (LJ j) j.2.2) (oSet1 (LJ j') j'.2.2) := by
  intro j _ j' _ hne
  refine Finset.disjoint_left.mpr fun x h1 h2 => hne ?_
  obtain ⟨-, h1⟩ := (mem_oSet1 _ _ x).mp h1
  obtain ⟨-, h2⟩ := (mem_oSet1 _ _ x).mp h2
  exact J_ext (row0J_inj j j' (x 1).val (by rwa [row0_LJ] at h1) (by rwa [row0_LJ] at h2))
theorem cover_o1 : (Finset.univ : Finset J).biUnion (fun j => oSet1 (LJ j) j.2.2) = batchSet 1 := by
  ext x
  simp only [Finset.mem_biUnion, Finset.mem_univ, true_and, mem_batchSet]
  constructor
  · rintro ⟨j, hj⟩; exact ((mem_oSet1 _ _ x).mp hj).1
  · intro hb
    have hr : (x 1).val < 8192 := (x 1).isLt
    exact ⟨jOf (x 1).val hr, (mem_oSet1 _ _ x).mpr ⟨hb, by rw [row0_LJ]; exact row0J_jOf _ hr⟩⟩
theorem oPts1 (g : Buf (Elt F) (oLoc d)) :
    (oLoc d ↦[batchSet 1]{fullShare} g : sProp 𝕄) = bigSep (Finset.univ : Finset J) fun j => oLoc d ↦[oSet1 (LJ j) j.2.2]{fullShare} g := by
  rw [← pointsTo_biUnion Finset.univ (ℓ := oLoc d) (fun j : J => oSet1 (LJ j) j.2.2) disjoint_o1, cover_o1]

theorem oSet2_eq (L : grid0.Coords) (k : Fin k0_t1_loop.trips) :
    oSet2 L k = (Rect.unit (s := S4x8192x768) (k0_off4 L k) S1x128x768.size (k0_off4_inb L k)).set := by
  show (((View.whole (main_v0_scv : Ref sig .scVector)).slice (Rect.unit (s := S4x8192x768) (k0_off4 L k) S1x128x768.size (k0_off4_inb L k))).reshape
    S128x768 squeezes_S1x128x768_S128x768.numel_eq).set = _
  rw [View.set_reshape, View.set_slice]; exact Finset.map_refl
theorem mem_oSet2 (L : grid0.Coords) (k : Fin k0_t1_loop.trips) (x : S4x8192x768.Idx) :
    x ∈ oSet2 L k ↔ (x 0).val = 2 ∧ row0 L k ≤ (x 1).val ∧ (x 1).val < row0 L k + 128 := by
  rw [oSet2_eq]; exact mem_unit3 _ _ 2 (row0 L k) (k0_off4_eq L k) x
theorem disjoint_o2 : ∀ j ∈ (Finset.univ : Finset J), ∀ j' ∈ (Finset.univ : Finset J), j ≠ j' →
    Disjoint (oSet2 (LJ j) j.2.2) (oSet2 (LJ j') j'.2.2) := by
  intro j _ j' _ hne
  refine Finset.disjoint_left.mpr fun x h1 h2 => hne ?_
  obtain ⟨-, h1⟩ := (mem_oSet2 _ _ x).mp h1
  obtain ⟨-, h2⟩ := (mem_oSet2 _ _ x).mp h2
  exact J_ext (row0J_inj j j' (x 1).val (by rwa [row0_LJ] at h1) (by rwa [row0_LJ] at h2))
theorem cover_o2 : (Finset.univ : Finset J).biUnion (fun j => oSet2 (LJ j) j.2.2) = batchSet 2 := by
  ext x
  simp only [Finset.mem_biUnion, Finset.mem_univ, true_and, mem_batchSet]
  constructor
  · rintro ⟨j, hj⟩; exact ((mem_oSet2 _ _ x).mp hj).1
  · intro hb
    have hr : (x 1).val < 8192 := (x 1).isLt
    exact ⟨jOf (x 1).val hr, (mem_oSet2 _ _ x).mpr ⟨hb, by rw [row0_LJ]; exact row0J_jOf _ hr⟩⟩
theorem oPts2 (g : Buf (Elt F) (oLoc d)) :
    (oLoc d ↦[batchSet 2]{fullShare} g : sProp 𝕄) = bigSep (Finset.univ : Finset J) fun j => oLoc d ↦[oSet2 (LJ j) j.2.2]{fullShare} g := by
  rw [← pointsTo_biUnion Finset.univ (ℓ := oLoc d) (fun j : J => oSet2 (LJ j) j.2.2) disjoint_o2, cover_o2]

theorem oSet3_eq (L : grid0.Coords) (k : Fin k0_t1_loop.trips) :
    oSet3 L k = (Rect.unit (s := S4x8192x768) (k0_off5 L k) S1x128x768.size (k0_off5_inb L k)).set := by
  show (((View.whole (main_v0_scv : Ref sig .scVector)).slice (Rect.unit (s := S4x8192x768) (k0_off5 L k) S1x128x768.size (k0_off5_inb L k))).reshape
    S128x768 squeezes_S1x128x768_S128x768.numel_eq).set = _
  rw [View.set_reshape, View.set_slice]; exact Finset.map_refl
theorem mem_oSet3 (L : grid0.Coords) (k : Fin k0_t1_loop.trips) (x : S4x8192x768.Idx) :
    x ∈ oSet3 L k ↔ (x 0).val = 3 ∧ row0 L k ≤ (x 1).val ∧ (x 1).val < row0 L k + 128 := by
  rw [oSet3_eq]; exact mem_unit3 _ _ 3 (row0 L k) (k0_off5_eq L k) x
theorem disjoint_o3 : ∀ j ∈ (Finset.univ : Finset J), ∀ j' ∈ (Finset.univ : Finset J), j ≠ j' →
    Disjoint (oSet3 (LJ j) j.2.2) (oSet3 (LJ j') j'.2.2) := by
  intro j _ j' _ hne
  refine Finset.disjoint_left.mpr fun x h1 h2 => hne ?_
  obtain ⟨-, h1⟩ := (mem_oSet3 _ _ x).mp h1
  obtain ⟨-, h2⟩ := (mem_oSet3 _ _ x).mp h2
  exact J_ext (row0J_inj j j' (x 1).val (by rwa [row0_LJ] at h1) (by rwa [row0_LJ] at h2))
theorem cover_o3 : (Finset.univ : Finset J).biUnion (fun j => oSet3 (LJ j) j.2.2) = batchSet 3 := by
  ext x
  simp only [Finset.mem_biUnion, Finset.mem_univ, true_and, mem_batchSet]
  constructor
  · rintro ⟨j, hj⟩; exact ((mem_oSet3 _ _ x).mp hj).1
  · intro hb
    have hr : (x 1).val < 8192 := (x 1).isLt
    exact ⟨jOf (x 1).val hr, (mem_oSet3 _ _ x).mpr ⟨hb, by rw [row0_LJ]; exact row0J_jOf _ hr⟩⟩
theorem oPts3 (g : Buf (Elt F) (oLoc d)) :
    (oLoc d ↦[batchSet 3]{fullShare} g : sProp 𝕄) = bigSep (Finset.univ : Finset J) fun j => oLoc d ↦[oSet3 (LJ j) j.2.2]{fullShare} g := by
  rw [← pointsTo_biUnion Finset.univ (ℓ := oLoc d) (fun j : J => oSet3 (LJ j) j.2.2) disjoint_o3, cover_o3]

/-- The result whole is its four batch entries. -/
theorem batches_cover : (Finset.univ : Finset S4x8192x768.Idx) = batchSet 0 ∪ (batchSet 1 ∪ (batchSet 2 ∪ batchSet 3)) := by
  ext x
  simp only [Finset.mem_univ, Finset.mem_union, mem_batchSet, true_iff]
  have h : (x 0).val < 4 := (x 0).isLt
  omega
theorem batches_disjoint {a b : ℕ} (h : a ≠ b) : Disjoint (batchSet a) (batchSet b) :=
  Finset.disjoint_left.mpr fun x h1 h2 => h (((mem_batchSet a x).mp h1).symm.trans ((mem_batchSet b x).mp h2))
theorem oPts (g : Buf (Elt F) (oLoc d)) :
    (oLoc d ↦{fullShare} g : sProp 𝕄)
      = iprop((oLoc d ↦[batchSet 0]{fullShare} g) ∗ (oLoc d ↦[batchSet 1]{fullShare} g) ∗ (oLoc d ↦[batchSet 2]{fullShare} g) ∗ (oLoc d ↦[batchSet 3]{fullShare} g)) := by
  have d23 : Disjoint (batchSet 2) (batchSet 3) := batches_disjoint (by decide)
  have d1 : Disjoint (batchSet 1) (batchSet 2 ∪ batchSet 3) :=
    Finset.disjoint_union_right.mpr ⟨batches_disjoint (by decide), batches_disjoint (by decide)⟩
  have d0 : Disjoint (batchSet 0) (batchSet 1 ∪ (batchSet 2 ∪ batchSet 3)) :=
    Finset.disjoint_union_right.mpr ⟨batches_disjoint (by decide), Finset.disjoint_union_right.mpr ⟨batches_disjoint (by decide), batches_disjoint (by decide)⟩⟩
  have u0 : (oLoc d ↦[batchSet 0 ∪ (batchSet 1 ∪ (batchSet 2 ∪ batchSet 3))]{fullShare} g : sProp 𝕄)
      ⊣⊢ iprop((oLoc d ↦[batchSet 0]{fullShare} g) ∗ oLoc d ↦[batchSet 1 ∪ (batchSet 2 ∪ batchSet 3)]{fullShare} g) := pointsTo_union d0
  have u1 : (oLoc d ↦[batchSet 1 ∪ (batchSet 2 ∪ batchSet 3)]{fullShare} g : sProp 𝕄)
      ⊣⊢ iprop((oLoc d ↦[batchSet 1]{fullShare} g) ∗ oLoc d ↦[batchSet 2 ∪ batchSet 3]{fullShare} g) := pointsTo_union d1
  have u2 : (oLoc d ↦[batchSet 2 ∪ batchSet 3]{fullShare} g : sProp 𝕄)
      ⊣⊢ iprop((oLoc d ↦[batchSet 2]{fullShare} g) ∗ oLoc d ↦[batchSet 3]{fullShare} g) := pointsTo_union d23
  refine (congrArg (fun S : Finset S4x8192x768.Idx => (oLoc d ↦[S]{fullShare} g : sProp 𝕄)) batches_cover).trans ?_
  rw [BI.equiv_iff.mp ⟨u0.1, u0.2⟩, BI.equiv_iff.mp ⟨u1.1, u1.2⟩, BI.equiv_iff.mp ⟨u2.1, u2.2⟩]

/-- The table whole beside the result whole at `g` is every block's arrays, the result's rows at `g`. -/
theorem split_blocks (g : Buf (Elt F) (oLoc d)) :
    (bigSep (Finset.univ : Finset J) fun j => tripRes m d (LJ j) j.2.2 g)
      = iprop((tLoc d ↦{fullShare} m (tLoc d)) ∗ oLoc d ↦{fullShare} g) := by
  unfold tripRes
  rw [bigSep_sep', bigSep_sep', bigSep_sep', bigSep_sep', ← tPts, ← oPts0, ← oPts1, ← oPts2, ← oPts3, ← oPts]

/-- The same with the blocks grouped as the launch hands them out: per SparseCore, per subcore, per trip. -/
theorem split_nested (g : Buf (Elt F) (oLoc d)) :
    (bigSep Finset.univ fun c : Fin 2 => bigSep Finset.univ fun s : Fin 16 => bigSep Finset.univ fun k : Fin k0_t1_loop.trips =>
        tripRes m d (coordsV c s) k g)
      = iprop((tLoc d ↦{fullShare} m (tLoc d)) ∗ oLoc d ↦{fullShare} g) := by
  rw [← split_blocks (F := F) m d g, bigSep_univ_prod]
  refine bigSep_congr fun c _ => ?_
  rw [bigSep_univ_prod]

theorem st0_eq : (bigSep Finset.univ fun c : Fin ((K (F := F)).nCore 0) => (P m).st 0 d c)
    = iprop((tLoc d ↦{fullShare} m (tLoc d)) ∗ oLoc d ↦{fullShare} m (oLoc d)) :=
  split_nested (F := F) m d (m (oLoc d))
theorem dn0_eq : (bigSep Finset.univ fun c : Fin ((K (F := F)).nCore 0) => (P m).dn 0 d c)
    = iprop((tLoc d ↦{fullShare} m (tLoc d)) ∗ oLoc d ↦{fullShare} outG m d) :=
  split_nested (F := F) m d (outG m d)

end

end Cert.Proof.KI

end
-- ==== Proof.KILaunch.lean ====
/-
  The launch. Every thread of the device runs: the TensorCore starts the two SparseCores, each sequencer hands its
  sixteen subcores their tasks, each subcore runs the task proved in the body module, and the results come back the
  same way. @main is the one call: it gives away the table and the result whole — which is every block's rows, split as
  the split module says — and gets them back with every block of the result holding the table's rows: the result is
  the table repeated. The integer argument is never touched.
-/
import proofs.«210005_g3977139716852_cont_8to1_b_2046_23_alg».proof.Proof.KIBody
import proofs.«210005_g3977139716852_cont_8to1_b_2046_23_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_bcast (coordsV c s)
          tW (Memref.isWhole_whole _) oW (Memref.isWhole_whole _) bW (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore is handed exactly its sixteen subcores' arrays, and hands back exactly theirs. -/
theorem vecSplit : (K (F := F)).VecSplit' (P m) 0 := by
  intro d c
  show (bigSep Finset.univ fun i : Fin ((K (F := F)).nSub 0) => tileGo m d (coordsV (Fin.cast nCore_zero c) (Fin.cast nSub_zero i)))
    ⊢ |={Set.univ}=> iprop((bigSep Finset.univ fun i : Fin ((K (F := F)).nSub 0) => tileGo m d (coordsV (Fin.cast nCore_zero c) (Fin.cast nSub_zero i)))
      ∗ ((bigSep Finset.univ fun i : Fin ((K (F := F)).nSub 0) => tileTd m d (coordsV (Fin.cast nCore_zero c) (Fin.cast nSub_zero i)))
          -∗ bigSep Finset.univ fun i : Fin ((K (F := F)).nSub 0) => tileTd m d (coordsV (Fin.cast nCore_zero c) (Fin.cast nSub_zero i))))
  iintro H; imodintro
  isplitl [H]; · iexact H
  iintro Htd; iexact Htd

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves: the arguments at their launch contents, the result at the table repeated. -/
abbrev FIN (d : Dev nD) : sProp 𝕄 :=
  iprop((xLoc d ↦{fullShare} m (xLoc d)) ∗ (tLoc d ↦{fullShare} m (tLoc d)) ∗ oLoc d ↦{fullShare} outG m d)

/-- @main on device `d`'s TensorCore: the one call, from the table and the result whole, back with the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Ht Ho]
  · iapply (Entails.of_eq (st0_eq (F := F) m d).symm)
    isplitl [Ht]; · iexact Ht
    iexact Ho
  iintro ⟨Hst, Hdn⟩
  ihave Hdn' := (Entails.of_eq (dn0_eq (F := F) m d)) $$ Hdn
  icases Hdn' with ⟨Ht, Ho⟩
  imodintro
  isplitl [Hst]; · iexact Hst
  isplitl [Hx]; · iexact Hx
  isplitl [Ht]; · iexact Ht
  iexact Ho

def fq (d : Dev nD) (s' : Phys nD τ sig (Elt F)) : Prop :=
  s'.mem.mem (xLoc d) = m (xLoc d) ∧ s'.mem.mem (tLoc d) = m (tLoc d) ∧ s'.mem.mem (oLoc d) = outG m d

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result is the table repeated; the arguments are unchanged. -/
def QC : PUnit × MemSt nD τ sig (Elt F) → Prop := fun r => ∀ c : Dev nD,
  r.2.mem (oLoc c) = outG m c ∧ r.2.mem (xLoc c) = m (xLoc c) ∧ r.2.mem (tLoc c) = m (tLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.KBSetup.lean ====
/-
  The program as the launch theorem reads it, the ghost state, and what each vector subcore is handed and hands back.

  Each of the 32 vector subcores (SparseCore c, subcore s) moves rows 512 s + 256 c + 128 k + [0, 128) of the table,
  for k = 0 and k = 1: a copy of those rows into its own scratch, waited for, then four copies of the scratch into the
  same rows of each of the four batch entries of the result, all four waited for before the scratch is written again.
  So a subcore needs exactly those rows of the table (which it only reads) and those rows of each batch entry of the
  result (which it overwrites): the pieces below, one per (k, array), each a slice as the program takes it. No two
  subcores touch a common element, and no handshake between subcores is needed beyond the launch's own.
-/
import proofs.«210005_g3977139716852_cont_8to1_b_2046_23_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«210005_g3977139716852_cont_8to1_b_2046_23_alg».proof.Proof.Gen.Kernel
import proofs.«210005_g3977139716852_cont_8to1_b_2046_23_alg».proof.Proof.Gen.Kernel.Skeleton
import proofs.«210005_g3977139716852_cont_8to1_b_2046_23_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the slices -/

variable (m : (ℓ : Loc nD τ sig) → Buf (Elt F) ℓ) (ρ : Dev nD → PrngReg)

/-- The unused integer argument, the table and the result, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The table and the result as a vector subcore addresses them, and its scratch. -/
abbrev tW : Memref sig .scVector .hbm S8192x768 .f32 := Memref.whole main_arg1_scv
abbrev oW : Memref sig .scVector .hbm S4x8192x768 .f32 := Memref.whole main_v0_scv
abbrev bW : Memref sig .scVector .vmem S128x768 .f32 := Memref.whole cc0_scratch0

/-- Rows `512 s + 256 c + 128 k + [0, 128)` of the table, as the subcore at `L = (c, s)` slices them in trip `k`. -/
abbrev tSl (L : grid0.Coords) (k : Fin k0_t1_loop.trips) : Memref sig .scVector .hbm S128x768 .f32 :=
  (tW).slice (Rect.unit (s := S8192x768) (k0_off1 L k) S128x768.size (k0_off1_inb L k)) (fun _ => rfl)
/-- The same rows of batch entries 0, 1, 2, 3 of the result, each sliced with a unit leading axis and squeezed. -/
abbrev oSl0 (L : grid0.Coords) (k : Fin k0_t1_loop.trips) : Memref sig .scVector .hbm S128x768 .f32 :=
  ((oW).slice (Rect.unit (s := S4x8192x768) (k0_off2 L k) S1x128x768.size (k0_off2_inb L k)) (fun _ => rfl)).squeeze S128x768 squeezes_S1x128x768_S128x768
abbrev oSl1 (L : grid0.Coords) (k : Fin k0_t1_loop.trips) : Memref sig .scVector .hbm S128x768 .f32 :=
  ((oW).slice (Rect.unit (s := S4x8192x768) (k0_off3 L k) S1x128x768.size (k0_off3_inb L k)) (fun _ => rfl)).squeeze S128x768 squeezes_S1x128x768_S128x768
abbrev oSl2 (L : grid0.Coords) (k : Fin k0_t1_loop.trips) : Memref sig .scVector .hbm S128x768 .f32 :=
  ((oW).slice (Rect.unit (s := S4x8192x768) (k0_off4 L k) S1x128x768.size (k0_off4_inb L k)) (fun _ => rfl)).squeeze S128x768 squeezes_S1x128x768_S128x768
abbrev oSl3 (L : grid0.Coords) (k : Fin k0_t1_loop.trips) : Memref sig .scVector .hbm S128x768 .f32 :=
  ((oW).slice (Rect.unit (s := S4x8192x768) (k0_off5 L k) S1x128x768.size (k0_off5_inb L k)) (fun _ => rfl)).squeeze S128x768 squeezes_S1x128x768_S128x768

/-- The elements of those slices. -/
abbrev tSet (L : grid0.Coords) (k : Fin k0_t1_loop.trips) : Finset S8192x768.Idx := (tSl L k).view.set
abbrev oSet0 (L : grid0.Coords) (k : Fin k0_t1_loop.trips) : Finset S4x8192x768.Idx := (oSl0 L k).view.set
abbrev oSet1 (L : grid0.Coords) (k : Fin k0_t1_loop.trips) : Finset S4x8192x768.Idx := (oSl1 L k).view.set
abbrev oSet2 (L : grid0.Coords) (k : Fin k0_t1_loop.trips) : Finset S4x8192x768.Idx := (oSl2 L k).view.set
abbrev oSet3 (L : grid0.Coords) (k : Fin k0_t1_loop.trips) : Finset S4x8192x768.Idx := (oSl3 L k).view.set

/-- What the result holds at the end: the launch table, repeated. -/
def outG (d : Dev nD) : Buf (Elt F) (oLoc d) := Cert.Spec.tiled (m (tLoc d))

/-- One trip's arrays: its rows of the table at the launch contents, its rows of the four batch entries at `g`. -/
def tripRes (d : Dev nD) (L : grid0.Coords) (k : Fin k0_t1_loop.trips) (g : Buf (Elt F) (oLoc d)) : sProp 𝕄 :=
  iprop((tLoc d ↦[tSet L k]{fullShare} m (tLoc d)) ∗ (oLoc d ↦[oSet0 L k]{fullShare} g) ∗ (oLoc d ↦[oSet1 L k]{fullShare} g)
    ∗ (oLoc d ↦[oSet2 L k]{fullShare} g) ∗ (oLoc d ↦[oSet3 L k]{fullShare} g))

/-- What the subcore at `L` is handed — both trips' arrays, the result's rows at the launch contents — and hands back —
    the same, the result's rows holding the table's. -/
def tileGo (d : Dev nD) (L : grid0.Coords) : sProp 𝕄 := bigSep Finset.univ fun k : Fin k0_t1_loop.trips => tripRes m d L k (m (oLoc d))
def tileTd (d : Dev nD) (L : grid0.Coords) : sProp 𝕄 := bigSep Finset.univ fun k : Fin k0_t1_loop.trips => tripRes m d L k (outG m d)

instance tripRes_storable (d : Dev nD) (L : grid0.Coords) (k : Fin k0_t1_loop.trips) (g : Buf (Elt F) (oLoc d)) :
    BI.Storable (upEmb : UEmb _ 𝕄) (tripRes m d L k g) := by unfold tripRes; infer_instance
instance tileGo_storable (d : Dev nD) (L : grid0.Coords) : BI.Storable (upEmb : UEmb _ 𝕄) (tileGo m d L) := by unfold tileGo; infer_instance
instance tileTd_storable (d : Dev nD) (L : grid0.Coords) : BI.Storable (upEmb : UEmb _ 𝕄) (tileTd m d L) := by unfold tileTd; infer_instance

/-- A grid point from a SparseCore's and a subcore's number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The launch's handshakes carry: to SparseCore `c` its sixteen subcores' arrays, to subcore `i` of it its own; back the
    same with the result's rows written. The kernel's own cells need no state from the launch. -/
def P : (K (F := F)).Pay (nD := nD) (Val := Elt F) (Name := ℕ) (U := UU) where
  st := fun q d c => match q with
    | 0 => bigSep Finset.univ fun i : Fin ((K (F := F)).nSub 0) => tileGo m d (coordsV (Fin.cast nCore_zero c) (Fin.cast nSub_zero i))
  dn := fun q d c => match q with
    | 0 => bigSep Finset.univ fun i : Fin ((K (F := F)).nSub 0) => tileTd m d (coordsV (Fin.cast nCore_zero c) (Fin.cast nSub_zero i))
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KB

end
-- ==== Proof.KBBody.lean ====
/-
  One vector subcore's task. The subcore holds its rows of the table and of the four batch entries of the result
  (both trips'), its scratch and its two DMA semaphores at zero. A trip copies the trip's rows of the table into the
  scratch and waits; then it starts four copies of the scratch, one into the trip's rows of each batch entry, all on
  one semaphore, and waits four times for one copy's amount. Only the last of those waits tells that every copy has
  landed (amounts of different copies may have added up before), and that is when the four destinations come back:
  each holds what the scratch held, which is the trip's rows of the table. The loop's invariant before trip n: the
  rows of the trips before n hold the table's rows, the others their launch contents.
-/
import proofs.«210005_g3977139716852_cont_8to1_b_2046_23_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
/-- The subcore's thread. -/
abbrev thrV (d : Dev nD) (L : grid0.Coords) : Thread nD τ := V d (cV L) (jV L)

/-- The semaphore of the four copies out of the scratch, and the one of the copy into it. -/
abbrev cOut (d : Dev nD) (L : grid0.Coords) : GSem nD τ sig := (thrV d L, .dma cc0_scratch1.sem)
abbrev cIn (d : Dev nD) (L : grid0.Coords) : GSem nD τ sig := (thrV d L, .dma cc0_scoped0.sem)

theorem ownSems0_V :
    (ownSems0 (thrV d L) : sProp 𝕄)
      = iprop(semVal (cOut d L) 0 ∗ semVal (cIn d L) 0
          ∗ bigSep (((ownCells (thrV d L)).erase (cOut d L)).erase (cIn d L)) fun g => semVal g 0) := by
  unfold SparseCore.Cfg.ownSems0
  rw [SparseCore.bigSep_erase' ((mem_ownCells (g := cOut d L)).mpr ⟨rfl, by
      show (SemLoc.dma cc0_scratch1.sem : SemLoc sig).isScoped .scVector = true; decide⟩),
    SparseCore.bigSep_erase' (Finset.mem_erase.mpr ⟨by simp [cOut, cIn]; decide, (mem_ownCells (g := cIn d L)).mpr ⟨rfl, by
      show (SemLoc.dma cc0_scoped0.sem : SemLoc sig).isScoped .scVector = true; decide⟩⟩)]

/-- The scratch is among the subcore's own buffers: it, at some contents, and the rest. -/
theorem ownBufs_V :
    (ownBufs (thrV d L) : sProp 𝕄)
      = iprop((∃ f, (thrV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

/-- A piece of the table or of the result, held by a slice's own elements, is the slice as the subcore addresses it. -/
theorem pts_t (k : Fin k0_t1_loop.trips) (f : Buf (Elt F) (tLoc d)) :
    ((tSl L k).view.loc (thrV d L) ↦[(tSl L k).view.set]{fullShare} f : sProp 𝕄) = tLoc d ↦[tSet L k]{fullShare} f := rfl
theorem pts_o0 (k : Fin k0_t1_loop.trips) (f : Buf (Elt F) (oLoc d)) :
    ((oSl0 L k).view.loc (thrV d L) ↦[(oSl0 L k).view.set]{fullShare} f : sProp 𝕄) = oLoc d ↦[oSet0 L k]{fullShare} f := rfl
theorem pts_o1 (k : Fin k0_t1_loop.trips) (f : Buf (Elt F) (oLoc d)) :
    ((oSl1 L k).view.loc (thrV d L) ↦[(oSl1 L k).view.set]{fullShare} f : sProp 𝕄) = oLoc d ↦[oSet1 L k]{fullShare} f := rfl
theorem pts_o2 (k : Fin k0_t1_loop.trips) (f : Buf (Elt F) (oLoc d)) :
    ((oSl2 L k).view.loc (thrV d L) ↦[(oSl2 L k).view.set]{fullShare} f : sProp 𝕄) = oLoc d ↦[oSet2 L k]{fullShare} f := rfl
theorem pts_o3 (k : Fin k0_t1_loop.trips) (f : Buf (Elt F) (oLoc d)) :
    ((oSl3 L k).view.loc (thrV d L) ↦[(oSl3 L k).view.set]{fullShare} f : sProp 𝕄) = oLoc d ↦[oSet3 L k]{fullShare} f := rfl

/-- Before the first trip no rows are written; after the last all are. -/
theorem rows_before_first :
    (bigSep Finset.univ fun k : Fin k0_t1_loop.trips => tripRes m d L k (if k.val < 0 then outG m d else m (oLoc d))) = tileGo m d L := by
  unfold tileGo
  exact bigSep_congr fun k _ => by rw [if_neg (Nat.not_lt_zero _)]
theorem rows_after_last :
    (bigSep Finset.univ fun k : Fin k0_t1_loop.trips => tripRes m d L k (if k.val < k0_t1_loop.trips then outG m d else m (oLoc d))) = tileTd m d L := by
  unfold tileTd
  exact bigSep_congr fun k _ => by rw [if_pos k.isLt]

/-- The scratch, as the subcore's own buffer and as the program addresses it. -/
theorem pts_b (f : Buf (Elt F) ((thrV d L).loc cc0_scratch0)) :
    ((bW).view.loc (thrV d L) ↦{fullShare} f : sProp 𝕄) = (thrV d L).loc cc0_scratch0 ↦{fullShare} f := rfl

/-- One trip's arrays, spelt out. -/
theorem tripRes_def (k : Fin k0_t1_loop.trips) (g : Buf (Elt F) (oLoc d)) :
    tripRes m d L k g = iprop((tLoc d ↦[tSet L k]{fullShare} m (tLoc d)) ∗ (oLoc d ↦[oSet0 L k]{fullShare} g) ∗ (oLoc d ↦[oSet1 L k]{fullShare} g)
      ∗ (oLoc d ↦[oSet2 L k]{fullShare} g) ∗ (oLoc d ↦[oSet3 L k]{fullShare} g)) := rfl

/-- Before trip `k`, trip `k`'s own rows are still at their launch contents; the other trips' stand apart. -/
theorem trip_open (k : Fin k0_t1_loop.trips) :
    (bigSep Finset.univ fun j : Fin k0_t1_loop.trips => tripRes m d L j (if j.val < k.val then outG m d else m (oLoc d)))
      = iprop(tripRes m d L k (m (oLoc d))
          ∗ bigSep (Finset.univ.erase k) fun j : Fin k0_t1_loop.trips => tripRes m d L j (if j.val < k.val then outG m d else m (oLoc d))) := by
  rw [SparseCore.bigSep_erase' (Finset.mem_univ k), if_neg (Nat.lt_irrefl _)]
/-- Once trip `k`'s rows are written, the rows of the trips before `k + 1` are. -/
theorem trip_close (k : Fin k0_t1_loop.trips) :
    (bigSep Finset.univ fun j : Fin k0_t1_loop.trips => tripRes m d L j (if j.val < k.val + 1 then outG m d else m (oLoc d)))
      = iprop(tripRes m d L k (outG m d)
          ∗ bigSep (Finset.univ.erase k) fun j : Fin k0_t1_loop.trips => tripRes m d L j (if j.val < k.val then outG m d else m (oLoc d))) := by
  rw [SparseCore.bigSep_erase' (Finset.mem_univ k), if_pos (Nat.lt_succ_self _)]
  congr 1
  refine bigSep_congr fun j hj => ?_
  have hne : j.val ≠ k.val := fun e => (Finset.mem_erase.mp hj).1 (Fin.ext e)
  by_cases h : j.val < k.val
  · rw [if_pos h, if_pos (Nat.lt_succ_of_lt h)]
  · rw [if_neg h, if_neg (by omega)]

/-- The loop's invariant before trip `n`. -/
def inv (O : CellTallies nD τ sig (HIx 1)) (W : Waits sig (HIx 1)) (n : Nat) (_ : PUnit) : sProp 𝕄 :=
  iprop(Transfers.MayWaits (thrV d L) (none : HIx 1) O
    ∗ (bigSep Finset.univ fun k : Fin k0_t1_loop.trips => tripRes m d L k (if k.val < n then outG m d else m (oLoc d)))
    ∗ (∃ f, (bW).view.loc (thrV d L) ↦{fullShare} f)
    ∗ semVal (cOut d L) 0 ∗ semVal (cIn d L) 0
    ∗ ∃ W', ⌜∀ p ∈ W', p ∈ W ∨ p.2 = none⌝ ∗ owes (thrV d L) O W')

/-- The unit leading axis put back on an index of a 128 × 768 block: (r, e) is (0, r, e). -/
def up1 (y : S128x768.Idx) : S1x128x768.Idx := fun a => match a with
  | ⟨0, _⟩ => ⟨0, Nat.one_pos⟩
  | ⟨1, _⟩ => ⟨(y 0).val, (y 0).isLt⟩
  | ⟨2, _⟩ => ⟨(y 1).val, (y 1).isLt⟩

/-- Dropping a unit leading axis keeps row-major positions, so it matches (r, e) with (0, r, e). -/
theorem squeeze_idx (h : S128x768.numel = S1x128x768.numel) (y : S128x768.Idx) : Shape.reshapeEquiv h y = up1 y :=
  Shape.reshapeEquiv_eq_of_rowMajor h (by
    rw [Shape.rowMajor_val_three, Shape.rowMajor_val_two]
    show (0 * 128 + (y 0).val) * 768 + (y 1).val = (y 0).val * 768 + (y 1).val
    omega)

/-! The table entry a result element reads is the table's element at the same place of the trip's block: the block of
    batch entry b starts at row `512 s + 256 c + 128 k` of that entry, the table's block at the same row. -/

theorem row_o0 (k : Fin k0_t1_loop.trips) (y : S128x768.Idx) : Cert.Spec.rowOf ((oSl0 L k).view.emb y) = (tSl L k).view.emb y := by
  have e : (oSl0 L k).view.emb y = (Rect.unit (s := S4x8192x768) (k0_off2 L k) S1x128x768.size (k0_off2_inb L k)).emb (up1 y) := by
    show (Rect.unit (s := S4x8192x768) (k0_off2 L k) S1x128x768.size (k0_off2_inb L k)).emb (Shape.reshapeEquiv _ y) = _
    rw [squeeze_idx]
  funext a; apply Fin.ext
  match a with
  | ⟨0, _⟩ =>
    show ((oSl0 L k).view.emb y 1).val = ((tSl L k).view.emb y 0).val
    rw [e]
    show (k0_off2 L k) 1 + 1 * (y 0).val = (k0_off1 L k) 0 + 1 * (y 0).val
    rw [k0_off2_eq, k0_off1_eq]; rfl
  | ⟨1, _⟩ =>
    show ((oSl0 L k).view.emb y 2).val = ((tSl L k).view.emb y 1).val
    rw [e]
    show (k0_off2 L k) 2 + 1 * (y 1).val = (k0_off1 L k) 1 + 1 * (y 1).val
    rw [k0_off2_eq, k0_off1_eq]; rfl

/-- Batch entry 0's rows, once the scratch has landed in them, hold the table's rows on every element of theirs. -/
theorem landed_o0 (k : Fin k0_t1_loop.trips) (P : S128x768.Idx → Elt F .f32) (hP : ∀ y, P y = m (tLoc d) ((tSl L k).view.emb y)) :
    ∀ i ∈ (oSl0 L k).view.set, (oSl0 L k).view.writes (Elt F) (m (oLoc d)) [⟨Rect.whole S128x768, P⟩] i = outG m d i := by
  intro i hi
  obtain ⟨y, -, rfl⟩ := Finset.mem_map.mp hi
  have h := congrFun (View.read_writes_whole (oSl0 L k).view (m (oLoc d)) P) y
  rw [View.read_apply, cast_eq] at h
  refine h.trans ?_
  rw [hP]
  show _ = Cert.Spec.tiled (m (tLoc d)) _
  rw [Cert.Spec.tiled_apply, row_o0]

theorem row_o1 (k : Fin k0_t1_loop.trips) (y : S128x768.Idx) : Cert.Spec.rowOf ((oSl1 L k).view.emb y) = (tSl L k).view.emb y := by
  have e : (oSl1 L k).view.emb y = (Rect.unit (s := S4x8192x768) (k0_off3 L k) S1x128x768.size (k0_off3_inb L k)).emb (up1 y) := by
    show (Rect.unit (s := S4x8192x768) (k0_off3 L k) S1x128x768.size (k0_off3_inb L k)).emb (Shape.reshapeEquiv _ y) = _
    rw [squeeze_idx]
  funext a; apply Fin.ext
  match a with
  | ⟨0, _⟩ =>
    show ((oSl1 L k).view.emb y 1).val = ((tSl L k).view.emb y 0).val
    rw [e]
    show (k0_off3 L k) 1 + 1 * (y 0).val = (k0_off1 L k) 0 + 1 * (y 0).val
    rw [k0_off3_eq, k0_off1_eq]; rfl
  | ⟨1, _⟩ =>
    show ((oSl1 L k).view.emb y 2).val = ((tSl L k).view.emb y 1).val
    rw [e]
    show (k0_off3 L k) 2 + 1 * (y 1).val = (k0_off1 L k) 1 + 1 * (y 1).val
    rw [k0_off3_eq, k0_off1_eq]; rfl

/-- Batch entry 1's rows, once the scratch has landed in them, hold the table's rows on every element of theirs. -/
theorem landed_o1 (k : Fin k0_t1_loop.trips) (P : S128x768.Idx → Elt F .f32) (hP : ∀ y, P y = m (tLoc d) ((tSl L k).view.emb y)) :
    ∀ i ∈ (oSl1 L k).view.set, (oSl1 L k).view.writes (Elt F) (m (oLoc d)) [⟨Rect.whole S128x768, P⟩] i = outG m d i := by
  intro i hi
  obtain ⟨y, -, rfl⟩ := Finset.mem_map.mp hi
  have h := congrFun (View.read_writes_whole (oSl1 L k).view (m (oLoc d)) P) y
  rw [View.read_apply, cast_eq] at h
  refine h.trans ?_
  rw [hP]
  show _ = Cert.Spec.tiled (m (tLoc d)) _
  rw [Cert.Spec.tiled_apply, row_o1]

theorem row_o2 (k : Fin k0_t1_loop.trips) (y : S128x768.Idx) : Cert.Spec.rowOf ((oSl2 L k).view.emb y) = (tSl L k).view.emb y := by
  have e : (oSl2 L k).view.emb y = (Rect.unit (s := S4x8192x768) (k0_off4 L k) S1x128x768.size (k0_off4_inb L k)).emb (up1 y) := by
    show (Rect.unit (s := S4x8192x768) (k0_off4 L k) S1x128x768.size (k0_off4_inb L k)).emb (Shape.reshapeEquiv _ y) = _
    rw [squeeze_idx]
  funext a; apply Fin.ext
  match a with
  | ⟨0, _⟩ =>
    show ((oSl2 L k).view.emb y 1).val = ((tSl L k).view.emb y 0).val
    rw [e]
    show (k0_off4 L k) 1 + 1 * (y 0).val = (k0_off1 L k) 0 + 1 * (y 0).val
    rw [k0_off4_eq, k0_off1_eq]; rfl
  | ⟨1, _⟩ =>
    show ((oSl2 L k).view.emb y 2).val = ((tSl L k).view.emb y 1).val
    rw [e]
    show (k0_off4 L k) 2 + 1 * (y 1).val = (k0_off1 L k) 1 + 1 * (y 1).val
    rw [k0_off4_eq, k0_off1_eq]; rfl

/-- Batch entry 2's rows, once the scratch has landed in them, hold the table's rows on every element of theirs. -/
theorem landed_o2 (k : Fin k0_t1_loop.trips) (P : S128x768.Idx → Elt F .f32) (hP : ∀ y, P y = m (tLoc d) ((tSl L k).view.emb y)) :
    ∀ i ∈ (oSl2 L k).view.set, (oSl2 L k).view.writes (Elt F) (m (oLoc d)) [⟨Rect.whole S128x768, P⟩] i = outG m d i := by
  intro i hi
  obtain ⟨y, -, rfl⟩ := Finset.mem_map.mp hi
  have h := congrFun (View.read_writes_whole (oSl2 L k).view (m (oLoc d)) P) y
  rw [View.read_apply, cast_eq] at h
  refine h.trans ?_
  rw [hP]
  show _ = Cert.Spec.tiled (m (tLoc d)) _
  rw [Cert.Spec.tiled_apply, row_o2]

theorem row_o3 (k : Fin k0_t1_loop.trips) (y : S128x768.Idx) : Cert.Spec.rowOf ((oSl3 L k).view.emb y) = (tSl L k).view.emb y := by
  have e : (oSl3 L k).view.emb y = (Rect.unit (s := S4x8192x768) (k0_off5 L k) S1x128x768.size (k0_off5_inb L k)).emb (up1 y) := by
    show (Rect.unit (s := S4x8192x768) (k0_off5 L k) S1x128x768.size (k0_off5_inb L k)).emb (Shape.reshapeEquiv _ y) = _
    rw [squeeze_idx]
  funext a; apply Fin.ext
  match a with
  | ⟨0, _⟩ =>
    show ((oSl3 L k).view.emb y 1).val = ((tSl L k).view.emb y 0).val
    rw [e]
    show (k0_off5 L k) 1 + 1 * (y 0).val = (k0_off1 L k) 0 + 1 * (y 0).val
    rw [k0_off5_eq, k0_off1_eq]; rfl
  | ⟨1, _⟩ =>
    show ((oSl3 L k).view.emb y 2).val = ((tSl L k).view.emb y 1).val
    rw [e]
    show (k0_off5 L k) 2 + 1 * (y 1).val = (k0_off1 L k) 1 + 1 * (y 1).val
    rw [k0_off5_eq, k0_off1_eq]; rfl

/-- Batch entry 3's rows, once the scratch has landed in them, hold the table's rows on every element of theirs. -/
theorem landed_o3 (k : Fin k0_t1_loop.trips) (P : S128x768.Idx → Elt F .f32) (hP : ∀ y, P y = m (tLoc d) ((tSl L k).view.emb y)) :
    ∀ i ∈ (oSl3 L k).view.set, (oSl3 L k).view.writes (Elt F) (m (oLoc d)) [⟨Rect.whole S128x768, P⟩] i = outG m d i := by
  intro i hi
  obtain ⟨y, -, rfl⟩ := Finset.mem_map.mp hi
  have h := congrFun (View.read_writes_whole (oSl3 L k).view (m (oLoc d)) P) y
  rw [View.read_apply, cast_eq] at h
  refine h.trans ?_
  rw [hP]
  show _ = Cert.Spec.tiled (m (tLoc d)) _
  rw [Cert.Spec.tiled_apply, row_o3]

/-- What the scratch hands the four copies: it was filled whole from the trip's rows of the table, so at `y` it is the
    table's entry under `y` of those rows. -/
theorem payload_eq (k : Fin k0_t1_loop.trips) (f : Buf (Elt F) ((bW).view.loc (thrV d L))) (y : S128x768.Idx) :
    ReadAs.same.apply ((bW).view.read (Elt F) ((bW).view.write (Elt F) f (ReadAs.same.apply ((tSl L k).view.read (Elt F) (m (tLoc d)))) Finset.univ)) y
      = m (tLoc d) ((tSl L k).view.emb y) := by
  rw [ReadAs.apply_same, View.read_write_univ, ReadAs.apply_same, View.read_apply, cast_eq]

omit [FloatOps F] in
/-- A wait recorded at the kernel's own index keeps the record within what the launch allows. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- One trip, from the invariant before it to the invariant after it. -/
theorem trip_step (O : CellTallies nD τ sig (HIx 1)) (W : Waits sig (HIx 1)) (v2 : BitVec 32) (k : Fin k0_t1_loop.trips) (acc : PUnit) :
    inv m d L O W k.val acc
      ⊢ wp frame (wpE (defs₀ (F := F)) 𝒱₀ (thrV d L) none) Set.univ
          (k0_t1_body L tW (Memref.isWhole_whole _) oW (Memref.isWhole_whole _) bW (Memref.isWhole_whole _) cc0_scratch1 cc0_scoped0 v2 k acc)
          (inv m d L O W (k.val + 1)) := by
  have _plan : Transfers.BatchOf (thrV d L) (SemLoc.dma (sig := sig) cc0_scratch1.sem) 4 (windows := true) := trivial
  unfold inv
  rw [trip_open (F := F) m d L k, trip_close (F := F) m d L k, tripRes_def (F := F) m d L k (m (oLoc d))]
  iintro ⟨Hmw, ⟨⟨Ht, Ho0, Ho1, Ho2, Ho3⟩, Hrest⟩, ⟨%f, Hb⟩, HsemO, HsemI, %W', %hW', HO⟩
  ihave Ht' := (Entails.of_eq (pts_t (F := F) d L k _).symm) $$ Ht
  ihave Ho0' := (Entails.of_eq (pts_o0 (F := F) d L k _).symm) $$ Ho0
  ihave Ho1' := (Entails.of_eq (pts_o1 (F := F) d L k _).symm) $$ Ho1
  ihave Ho2' := (Entails.of_eq (pts_o2 (F := F) d L k _).symm) $$ Ho2
  ihave Ho3' := (Entails.of_eq (pts_o3 (F := F) d L k _).symm) $$ Ho3
  sl_exec
  sl_step
  ihave Hn0 := (Entails.of_eq ((pointsTo_congr (landed_o0 (F := F) m d L k (trip_step.sl.dma1 m d L k f) (payload_eq (F := F) m d L k f))).trans (pts_o0 (F := F) d L k _))) $$ Ho0'
  ihave Hn1 := (Entails.of_eq ((pointsTo_congr (landed_o1 (F := F) m d L k (trip_step.sl.dma1 m d L k f) (payload_eq (F := F) m d L k f))).trans (pts_o1 (F := F) d L k _))) $$ Ho1'
  ihave Hn2 := (Entails.of_eq ((pointsTo_congr (landed_o2 (F := F) m d L k (trip_step.sl.dma1 m d L k f) (payload_eq (F := F) m d L k f))).trans (pts_o2 (F := F) d L k _))) $$ Ho2'
  ihave Hn3 := (Entails.of_eq ((pointsTo_congr (landed_o3 (F := F) m d L k (trip_step.sl.dma1 m d L k f) (payload_eq (F := F) m d L k f))).trans (pts_o3 (F := F) d L k _))) $$ Ho3'
  ihave Htn := (Entails.of_eq (pts_t (F := F) d L k _)) $$ Ht'
  isplitl [Hmw]; · iexact Hmw
  isplitl [Htn Hn0 Hn1 Hn2 Hn3 Hrest]
  · isplitl [Htn Hn0 Hn1 Hn2 Hn3]
    · iapply (Entails.of_eq (tripRes_def (F := F) m d L k (outG m d)).symm)
      isplitl [Htn]; · iexact Htn
      isplitl [Hn0]; · iexact Hn0
      isplitl [Hn1]; · iexact Hn1
      isplitl [Hn2]; · iexact Hn2
      iexact Hn3
    · iexact Hrest
  isplitl [Hb]; · iexists _; iexact Hb
  isplitl [HsemO]; · iexact HsemO
  isplitl [HsemI]; · iexact HsemI
  iexists _; isplitr
  rotate_left
  · iexact HO
  · ipureintro; exact waits_insert (waits_insert (waits_insert (waits_insert (waits_insert hW'))))

/-- The task on the subcore at `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (thrV d L) ∗ scopedSems0 (thrV d L) ∗ owes (thrV d L) O W)
      ⊢ wp frame (wpE (defs₀ (F := F)) 𝒱₀ (thrV d L) none) Set.univ
          (cc0__sc_bcast L tW (Memref.isWhole_whole _) oW (Memref.isWhole_whole _) bW (Memref.isWhole_whole _) cc0_scratch1 cc0_scoped0)
          fun _ => iprop(tileTd m d L ∗ scopedBufs (thrV d L) ∗ scopedSems0 (thrV d L)
            ∗ ∃ W', ⌜∀ p ∈ W', p ∈ W ∨ p.2 = none⌝ ∗ owes (thrV d L) O W') := by
  simp only [cc0__sc_bcast_eq_skeleton]; unfold cc0__sc_bcast_skel
  rw [(K (F := F)).scopedBufs_V hF d (cV L) (jV L), SparseCore.Cfg.scopedSems0_V (Val := Elt F) d (cV L) (jV L), ownSems0_V, ownBufs_V]
  iintro ⟨#Hlv, -, Hgo, ⟨⟨%fb, Hbuf⟩, Hbufs⟩, ⟨HsemO, HsemI, Hsems⟩, HO⟩
  ihave Hmw := ((K (F := F)).mayWaits_none (thr := thrV d L) hO) $$ Hlv
  ihave Hbuf' := (Entails.of_eq (pts_b (F := F) d L _).symm) $$ Hbuf
  sl_exec
  sl_for (inv m d L O W) $$ [Hmw Hgo Hbuf' HsemO HsemI HO]
  case region =>
    intro k _
    exact trip_step m d L O W _ k _
  · unfold inv
    isplitl [Hmw]; · iexact Hmw
    isplitl [Hgo]
    · iapply (Entails.of_eq (rows_before_first (F := F) m d L).symm); iexact Hgo
    isplitl [Hbuf']; · iexists _; iexact Hbuf'
    isplitl [HsemO]; · iexact HsemO
    isplitl [HsemI]; · iexact HsemI
    iexists W; isplitr
    · ipureintro; exact fun p hp => .inl hp
    · iexact HO
  iintro %_ HI
  unfold inv
  icases HI with ⟨-, Htd, ⟨%f, Hb⟩, HsemO, HsemI, %W', %hW', HO⟩
  sl_exec
  sl_step
  isplitl [Htd]
  · iapply (Entails.of_eq (rows_after_last (F := F) m d L)); iexact Htd
  isplitl [Hb Hbufs]
  · isplitl [Hb]; · iexists _; iapply (Entails.of_eq (pts_b (F := F) d L _)); iexact Hb
    iexact Hbufs
  isplitl [HsemO HsemI Hsems]
  · isplitl [HsemO]; · iexact HsemO
    isplitl [HsemI]; · iexact HsemI
    iexact Hsems
  iexists W'; isplitr
  · ipureintro; exact hW'
  · iexact HO

end Tile

end Cert.Proof.KB

end
-- ==== Proof.KBSplit.lean ====
/-
  How the table and the result split among the 64 blocks. Block (c, s, k) — SparseCore c, subcore s, trip k — is rows
  128 n + [0, 128) for n = 4 s + 2 c + k, and n runs over 0 … 63 exactly once as (c, s, k) runs over 2 × 16 × 2: the
  blocks are pairwise disjoint and cover the 8192 rows. So the table whole is the blocks' pieces of it, and the result
  whole is, for each of its four batch entries, the blocks' pieces of that entry. This is what @main hands the two
  SparseCores at the call and what it gets back.
-/
import proofs.«210005_g3977139716852_cont_8to1_b_2046_23_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-! ## Blocks by number -/

/-- A block: SparseCore, subcore, trip. -/
abbrev J : Type := Fin 2 × Fin 16 × Fin k0_t1_loop.trips
/-- Its grid point. -/
abbrev LJ (j : J) : grid0.Coords := coordsV j.1 j.2.1

theorem trips_two : k0_t1_loop.trips = 2 := by decide +kernel

/-- The first row of the block the subcore at `L` moves in trip `k`. -/
def row0 (L : grid0.Coords) (k : Fin k0_t1_loop.trips) : ℕ := 512 * (L 1).val + 256 * (L 0).val + 128 * k.val
def row0J (j : J) : ℕ := 512 * j.2.1.val + 256 * j.1.val + 128 * j.2.2.val
theorem row0_LJ (j : J) : row0 (LJ j) j.2.2 = row0J j := rfl

theorem J_ext {j j' : J} (h : j.1.val = j'.1.val ∧ j.2.1.val = j'.2.1.val ∧ j.2.2.val = j'.2.2.val) : j = j' :=
  Prod.ext (Fin.ext h.1) (Prod.ext (Fin.ext h.2.1) (Fin.ext h.2.2))

/-- Two blocks that share a row are one block. -/
theorem row0J_inj (j j' : J) (r : ℕ) (h : row0J j ≤ r ∧ r < row0J j + 128) (h' : row0J j' ≤ r ∧ r < row0J j' + 128) :
    j.1.val = j'.1.val ∧ j.2.1.val = j'.2.1.val ∧ j.2.2.val = j'.2.2.val := by
  have h1 := j.1.isLt; have h2 := j.2.1.isLt; have h3 : j.2.2.val < 2 := lt_of_lt_of_eq j.2.2.isLt trips_two
  have h1' := j'.1.isLt; have h2' := j'.2.1.isLt; have h3' : j'.2.2.val < 2 := lt_of_lt_of_eq j'.2.2.isLt trips_two
  unfold row0J at h h'
  omega

/-- The block that holds row `r`. -/
def jOf (r : ℕ) (hr : r < 8192) : J :=
  (⟨r % 512 / 256, by omega⟩, ⟨r / 512, by omega⟩, ⟨r % 256 / 128, by rw [trips_two]; omega⟩)
theorem row0J_jOf (r : ℕ) (hr : r < 8192) : row0J (jOf r hr) ≤ r ∧ r < row0J (jOf r hr) + 128 := by
  show 512 * (r / 512) + 256 * (r % 512 / 256) + 128 * (r % 256 / 128) ≤ r ∧ r < 512 * (r / 512) + 256 * (r % 512 / 256) + 128 * (r % 256 / 128) + 128
  omega

/-! ## The slices' elements -/

theorem tSet_eq (L : grid0.Coords) (k : Fin k0_t1_loop.trips) :
    tSet L k = (Rect.unit (s := S8192x768) (k0_off1 L k) S128x768.size (k0_off1_inb L k)).set := by
  show ((View.whole (main_arg1_scv : Ref sig .scVector)).slice (Rect.unit (s := S8192x768) (k0_off1 L k) S128x768.size (k0_off1_inb L k))).set = _
  rw [View.set_slice]; exact Finset.map_refl

/-- An element of the table is in the block iff its row is. -/
theorem mem_tSet (L : grid0.Coords) (k : Fin k0_t1_loop.trips) (x : S8192x768.Idx) :
    x ∈ tSet L k ↔ row0 L k ≤ (x 0).val ∧ (x 0).val < row0 L k + 128 := by
  rw [tSet_eq, Rect.mem_set_unit]
  have e := k0_off1_eq L k
  constructor
  · intro h
    have h0 := h 0
    rw [e] at h0
    exact h0
  · intro h a
    rw [e]
    match a with
    | ⟨0, _⟩ => exact h
    | ⟨1, _⟩ => exact ⟨Nat.zero_le _, by have h1 : (x 1).val < 768 := (x 1).isLt; show (x 1).val < 0 + 768; omega⟩

/-- An element of the result is in a block of batch entry `b` iff its batch coordinate is `b` and its row is in the block. -/
theorem mem_unit3 (off : Fin 3 → ℕ) (inb : ∀ a, off a + S1x128x768.size a ≤ S4x8192x768.size a) (b R : ℕ) (e : off = ![b, R, 0]) (x : S4x8192x768.Idx) :
    x ∈ (Rect.unit (s := S4x8192x768) off S1x128x768.size inb).set ↔ (x 0).val = b ∧ R ≤ (x 1).val ∧ (x 1).val < R + 128 := by
  subst e
  rw [Rect.mem_set_unit]
  constructor
  · intro h
    have h0 : b ≤ (x 0).val ∧ (x 0).val < b + 1 := h 0
    have h1 : R ≤ (x 1).val ∧ (x 1).val < R + 128 := h 1
    exact ⟨by omega, h1⟩
  · intro h a
    match a with
    | ⟨0, _⟩ => exact (show b ≤ (x 0).val ∧ (x 0).val < b + 1 by omega)
    | ⟨1, _⟩ => exact h.2
    | ⟨2, _⟩ => exact ⟨Nat.zero_le _, by have h2 : (x 2).val < 768 := (x 2).isLt; show (x 2).val < 0 + 768; omega⟩

/-- Batch entry `b` of the result. -/
def batchSet (b : ℕ) : Finset S4x8192x768.Idx := Finset.univ.filter fun x => (x 0).val = b
theorem mem_batchSet (b : ℕ) (x : S4x8192x768.Idx) : x ∈ batchSet b ↔ (x 0).val = b := by
  unfold batchSet; rw [Finset.mem_filter]; exact ⟨fun h => h.2, fun h => ⟨Finset.mem_univ _, h⟩⟩

section

variable (d : Dev nD)

theorem disjoint_t : ∀ j ∈ (Finset.univ : Finset J), ∀ j' ∈ (Finset.univ : Finset J), j ≠ j' →
    Disjoint (tSet (LJ j) j.2.2) (tSet (LJ j') j'.2.2) := by
  intro j _ j' _ hne
  refine Finset.disjoint_left.mpr fun x h1 h2 => hne ?_
  have h1 := (mem_tSet _ _ x).mp h1
  have h2 := (mem_tSet _ _ x).mp h2
  exact J_ext (row0J_inj j j' (x 0).val (by rwa [row0_LJ] at h1) (by rwa [row0_LJ] at h2))
theorem cover_t : (Finset.univ : Finset J).biUnion (fun j => tSet (LJ j) j.2.2) = Finset.univ := by
  ext x
  simp only [Finset.mem_biUnion, Finset.mem_univ, true_and, iff_true]
  have hr : (x 0).val < 8192 := (x 0).isLt
  exact ⟨jOf (x 0).val hr, (mem_tSet _ _ x).mpr (by rw [row0_LJ]; exact row0J_jOf _ hr)⟩
/-- The table whole is its 64 blocks. -/
theorem tPts (f : Buf (Elt F) (tLoc d)) :
    (tLoc d ↦{fullShare} f : sProp 𝕄) = bigSep (Finset.univ : Finset J) fun j => tLoc d ↦[tSet (LJ j) j.2.2]{fullShare} f := by
  rw [← pointsTo_biUnion Finset.univ (ℓ := tLoc d) (fun j : J => tSet (LJ j) j.2.2) disjoint_t, cover_t]; try rfl

theorem oSet0_eq (L : grid0.Coords) (k : Fin k0_t1_loop.trips) :
    oSet0 L k = (Rect.unit (s := S4x8192x768) (k0_off2 L k) S1x128x768.size (k0_off2_inb L k)).set := by
  show (((View.whole (main_v0_scv : Ref sig .scVector)).slice (Rect.unit (s := S4x8192x768) (k0_off2 L k) S1x128x768.size (k0_off2_inb L k))).reshape
    S128x768 squeezes_S1x128x768_S128x768.numel_eq).set = _
  rw [View.set_reshape, View.set_slice]; exact Finset.map_refl
theorem mem_oSet0 (L : grid0.Coords) (k : Fin k0_t1_loop.trips) (x : S4x8192x768.Idx) :
    x ∈ oSet0 L k ↔ (x 0).val = 0 ∧ row0 L k ≤ (x 1).val ∧ (x 1).val < row0 L k + 128 := by
  rw [oSet0_eq]; exact mem_unit3 _ _ 0 (row0 L k) (k0_off2_eq L k) x
theorem disjoint_o0 : ∀ j ∈ (Finset.univ : Finset J), ∀ j' ∈ (Finset.univ : Finset J), j ≠ j' →
    Disjoint (oSet0 (LJ j) j.2.2) (oSet0 (LJ j') j'.2.2) := by
  intro j _ j' _ hne
  refine Finset.disjoint_left.mpr fun x h1 h2 => hne ?_
  obtain ⟨-, h1⟩ := (mem_oSet0 _ _ x).mp h1
  obtain ⟨-, h2⟩ := (mem_oSet0 _ _ x).mp h2
  exact J_ext (row0J_inj j j' (x 1).val (by rwa [row0_LJ] at h1) (by rwa [row0_LJ] at h2))
theorem cover_o0 : (Finset.univ : Finset J).biUnion (fun j => oSet0 (LJ j) j.2.2) = batchSet 0 := by
  ext x
  simp only [Finset.mem_biUnion, Finset.mem_univ, true_and, mem_batchSet]
  constructor
  · rintro ⟨j, hj⟩; exact ((mem_oSet0 _ _ x).mp hj).1
  · intro hb
    have hr : (x 1).val < 8192 := (x 1).isLt
    exact ⟨jOf (x 1).val hr, (mem_oSet0 _ _ x).mpr ⟨hb, by rw [row0_LJ]; exact row0J_jOf _ hr⟩⟩
theorem oPts0 (g : Buf (Elt F) (oLoc d)) :
    (oLoc d ↦[batchSet 0]{fullShare} g : sProp 𝕄) = bigSep (Finset.univ : Finset J) fun j => oLoc d ↦[oSet0 (LJ j) j.2.2]{fullShare} g := by
  rw [← pointsTo_biUnion Finset.univ (ℓ := oLoc d) (fun j : J => oSet0 (LJ j) j.2.2) disjoint_o0, cover_o0]

theorem oSet1_eq (L : grid0.Coords) (k : Fin k0_t1_loop.trips) :
    oSet1 L k = (Rect.unit (s := S4x8192x768) (k0_off3 L k) S1x128x768.size (k0_off3_inb L k)).set := by
  show (((View.whole (main_v0_scv : Ref sig .scVector)).slice (Rect.unit (s := S4x8192x768) (k0_off3 L k) S1x128x768.size (k0_off3_inb L k))).reshape
    S128x768 squeezes_S1x128x768_S128x768.numel_eq).set = _
  rw [View.set_reshape, View.set_slice]; exact Finset.map_refl
theorem mem_oSet1 (L : grid0.Coords) (k : Fin k0_t1_loop.trips) (x : S4x8192x768.Idx) :
    x ∈ oSet1 L k ↔ (x 0).val = 1 ∧ row0 L k ≤ (x 1).val ∧ (x 1).val < row0 L k + 128 := by
  rw [oSet1_eq]; exact mem_unit3 _ _ 1 (row0 L k) (k0_off3_eq L k) x
theorem disjoint_o1 : ∀ j ∈ (Finset.univ : Finset J), ∀ j' ∈ (Finset.univ : Finset J), j ≠ j' →
    Disjoint (oSet1 (LJ j) j.2.2) (oSet1 (LJ j') j'.2.2) := by
  intro j _ j' _ hne
  refine Finset.disjoint_left.mpr fun x h1 h2 => hne ?_
  obtain ⟨-, h1⟩ := (mem_oSet1 _ _ x).mp h1
  obtain ⟨-, h2⟩ := (mem_oSet1 _ _ x).mp h2
  exact J_ext (row0J_inj j j' (x 1).val (by rwa [row0_LJ] at h1) (by rwa [row0_LJ] at h2))
theorem cover_o1 : (Finset.univ : Finset J).biUnion (fun j => oSet1 (LJ j) j.2.2) = batchSet 1 := by
  ext x
  simp only [Finset.mem_biUnion, Finset.mem_univ, true_and, mem_batchSet]
  constructor
  · rintro ⟨j, hj⟩; exact ((mem_oSet1 _ _ x).mp hj).1
  · intro hb
    have hr : (x 1).val < 8192 := (x 1).isLt
    exact ⟨jOf (x 1).val hr, (mem_oSet1 _ _ x).mpr ⟨hb, by rw [row0_LJ]; exact row0J_jOf _ hr⟩⟩
theorem oPts1 (g : Buf (Elt F) (oLoc d)) :
    (oLoc d ↦[batchSet 1]{fullShare} g : sProp 𝕄) = bigSep (Finset.univ : Finset J) fun j => oLoc d ↦[oSet1 (LJ j) j.2.2]{fullShare} g := by
  rw [← pointsTo_biUnion Finset.univ (ℓ := oLoc d) (fun j : J => oSet1 (LJ j) j.2.2) disjoint_o1, cover_o1]

theorem oSet2_eq (L : grid0.Coords) (k : Fin k0_t1_loop.trips) :
    oSet2 L k = (Rect.unit (s := S4x8192x768) (k0_off4 L k) S1x128x768.size (k0_off4_inb L k)).set := by
  show (((View.whole (main_v0_scv : Ref sig .scVector)).slice (Rect.unit (s := S4x8192x768) (k0_off4 L k) S1x128x768.size (k0_off4_inb L k))).reshape
    S128x768 squeezes_S1x128x768_S128x768.numel_eq).set = _
  rw [View.set_reshape, View.set_slice]; exact Finset.map_refl
theorem mem_oSet2 (L : grid0.Coords) (k : Fin k0_t1_loop.trips) (x : S4x8192x768.Idx) :
    x ∈ oSet2 L k ↔ (x 0).val = 2 ∧ row0 L k ≤ (x 1).val ∧ (x 1).val < row0 L k + 128 := by
  rw [oSet2_eq]; exact mem_unit3 _ _ 2 (row0 L k) (k0_off4_eq L k) x
theorem disjoint_o2 : ∀ j ∈ (Finset.univ : Finset J), ∀ j' ∈ (Finset.univ : Finset J), j ≠ j' →
    Disjoint (oSet2 (LJ j) j.2.2) (oSet2 (LJ j') j'.2.2) := by
  intro j _ j' _ hne
  refine Finset.disjoint_left.mpr fun x h1 h2 => hne ?_
  obtain ⟨-, h1⟩ := (mem_oSet2 _ _ x).mp h1
  obtain ⟨-, h2⟩ := (mem_oSet2 _ _ x).mp h2
  exact J_ext (row0J_inj j j' (x 1).val (by rwa [row0_LJ] at h1) (by rwa [row0_LJ] at h2))
theorem cover_o2 : (Finset.univ : Finset J).biUnion (fun j => oSet2 (LJ j) j.2.2) = batchSet 2 := by
  ext x
  simp only [Finset.mem_biUnion, Finset.mem_univ, true_and, mem_batchSet]
  constructor
  · rintro ⟨j, hj⟩; exact ((mem_oSet2 _ _ x).mp hj).1
  · intro hb
    have hr : (x 1).val < 8192 := (x 1).isLt
    exact ⟨jOf (x 1).val hr, (mem_oSet2 _ _ x).mpr ⟨hb, by rw [row0_LJ]; exact row0J_jOf _ hr⟩⟩
theorem oPts2 (g : Buf (Elt F) (oLoc d)) :
    (oLoc d ↦[batchSet 2]{fullShare} g : sProp 𝕄) = bigSep (Finset.univ : Finset J) fun j => oLoc d ↦[oSet2 (LJ j) j.2.2]{fullShare} g := by
  rw [← pointsTo_biUnion Finset.univ (ℓ := oLoc d) (fun j : J => oSet2 (LJ j) j.2.2) disjoint_o2, cover_o2]

theorem oSet3_eq (L : grid0.Coords) (k : Fin k0_t1_loop.trips) :
    oSet3 L k = (Rect.unit (s := S4x8192x768) (k0_off5 L k) S1x128x768.size (k0_off5_inb L k)).set := by
  show (((View.whole (main_v0_scv : Ref sig .scVector)).slice (Rect.unit (s := S4x8192x768) (k0_off5 L k) S1x128x768.size (k0_off5_inb L k))).reshape
    S128x768 squeezes_S1x128x768_S128x768.numel_eq).set = _
  rw [View.set_reshape, View.set_slice]; exact Finset.map_refl
theorem mem_oSet3 (L : grid0.Coords) (k : Fin k0_t1_loop.trips) (x : S4x8192x768.Idx) :
    x ∈ oSet3 L k ↔ (x 0).val = 3 ∧ row0 L k ≤ (x 1).val ∧ (x 1).val < row0 L k + 128 := by
  rw [oSet3_eq]; exact mem_unit3 _ _ 3 (row0 L k) (k0_off5_eq L k) x
theorem disjoint_o3 : ∀ j ∈ (Finset.univ : Finset J), ∀ j' ∈ (Finset.univ : Finset J), j ≠ j' →
    Disjoint (oSet3 (LJ j) j.2.2) (oSet3 (LJ j') j'.2.2) := by
  intro j _ j' _ hne
  refine Finset.disjoint_left.mpr fun x h1 h2 => hne ?_
  obtain ⟨-, h1⟩ := (mem_oSet3 _ _ x).mp h1
  obtain ⟨-, h2⟩ := (mem_oSet3 _ _ x).mp h2
  exact J_ext (row0J_inj j j' (x 1).val (by rwa [row0_LJ] at h1) (by rwa [row0_LJ] at h2))
theorem cover_o3 : (Finset.univ : Finset J).biUnion (fun j => oSet3 (LJ j) j.2.2) = batchSet 3 := by
  ext x
  simp only [Finset.mem_biUnion, Finset.mem_univ, true_and, mem_batchSet]
  constructor
  · rintro ⟨j, hj⟩; exact ((mem_oSet3 _ _ x).mp hj).1
  · intro hb
    have hr : (x 1).val < 8192 := (x 1).isLt
    exact ⟨jOf (x 1).val hr, (mem_oSet3 _ _ x).mpr ⟨hb, by rw [row0_LJ]; exact row0J_jOf _ hr⟩⟩
theorem oPts3 (g : Buf (Elt F) (oLoc d)) :
    (oLoc d ↦[batchSet 3]{fullShare} g : sProp 𝕄) = bigSep (Finset.univ : Finset J) fun j => oLoc d ↦[oSet3 (LJ j) j.2.2]{fullShare} g := by
  rw [← pointsTo_biUnion Finset.univ (ℓ := oLoc d) (fun j : J => oSet3 (LJ j) j.2.2) disjoint_o3, cover_o3]

/-- The result whole is its four batch entries. -/
theorem batches_cover : (Finset.univ : Finset S4x8192x768.Idx) = batchSet 0 ∪ (batchSet 1 ∪ (batchSet 2 ∪ batchSet 3)) := by
  ext x
  simp only [Finset.mem_univ, Finset.mem_union, mem_batchSet, true_iff]
  have h : (x 0).val < 4 := (x 0).isLt
  omega
theorem batches_disjoint {a b : ℕ} (h : a ≠ b) : Disjoint (batchSet a) (batchSet b) :=
  Finset.disjoint_left.mpr fun x h1 h2 => h (((mem_batchSet a x).mp h1).symm.trans ((mem_batchSet b x).mp h2))
theorem oPts (g : Buf (Elt F) (oLoc d)) :
    (oLoc d ↦{fullShare} g : sProp 𝕄)
      = iprop((oLoc d ↦[batchSet 0]{fullShare} g) ∗ (oLoc d ↦[batchSet 1]{fullShare} g) ∗ (oLoc d ↦[batchSet 2]{fullShare} g) ∗ (oLoc d ↦[batchSet 3]{fullShare} g)) := by
  have d23 : Disjoint (batchSet 2) (batchSet 3) := batches_disjoint (by decide)
  have d1 : Disjoint (batchSet 1) (batchSet 2 ∪ batchSet 3) :=
    Finset.disjoint_union_right.mpr ⟨batches_disjoint (by decide), batches_disjoint (by decide)⟩
  have d0 : Disjoint (batchSet 0) (batchSet 1 ∪ (batchSet 2 ∪ batchSet 3)) :=
    Finset.disjoint_union_right.mpr ⟨batches_disjoint (by decide), Finset.disjoint_union_right.mpr ⟨batches_disjoint (by decide), batches_disjoint (by decide)⟩⟩
  have u0 : (oLoc d ↦[batchSet 0 ∪ (batchSet 1 ∪ (batchSet 2 ∪ batchSet 3))]{fullShare} g : sProp 𝕄)
      ⊣⊢ iprop((oLoc d ↦[batchSet 0]{fullShare} g) ∗ oLoc d ↦[batchSet 1 ∪ (batchSet 2 ∪ batchSet 3)]{fullShare} g) := pointsTo_union d0
  have u1 : (oLoc d ↦[batchSet 1 ∪ (batchSet 2 ∪ batchSet 3)]{fullShare} g : sProp 𝕄)
      ⊣⊢ iprop((oLoc d ↦[batchSet 1]{fullShare} g) ∗ oLoc d ↦[batchSet 2 ∪ batchSet 3]{fullShare} g) := pointsTo_union d1
  have u2 : (oLoc d ↦[batchSet 2 ∪ batchSet 3]{fullShare} g : sProp 𝕄)
      ⊣⊢ iprop((oLoc d ↦[batchSet 2]{fullShare} g) ∗ oLoc d ↦[batchSet 3]{fullShare} g) := pointsTo_union d23
  refine (congrArg (fun S : Finset S4x8192x768.Idx => (oLoc d ↦[S]{fullShare} g : sProp 𝕄)) batches_cover).trans ?_
  rw [BI.equiv_iff.mp ⟨u0.1, u0.2⟩, BI.equiv_iff.mp ⟨u1.1, u1.2⟩, BI.equiv_iff.mp ⟨u2.1, u2.2⟩]

/-- The table whole beside the result whole at `g` is every block's arrays, the result's rows at `g`. -/
theorem split_blocks (g : Buf (Elt F) (oLoc d)) :
    (bigSep (Finset.univ : Finset J) fun j => tripRes m d (LJ j) j.2.2 g)
      = iprop((tLoc d ↦{fullShare} m (tLoc d)) ∗ oLoc d ↦{fullShare} g) := by
  unfold tripRes
  rw [bigSep_sep', bigSep_sep', bigSep_sep', bigSep_sep', ← tPts, ← oPts0, ← oPts1, ← oPts2, ← oPts3, ← oPts]

/-- The same with the blocks grouped as the launch hands them out: per SparseCore, per subcore, per trip. -/
theorem split_nested (g : Buf (Elt F) (oLoc d)) :
    (bigSep Finset.univ fun c : Fin 2 => bigSep Finset.univ fun s : Fin 16 => bigSep Finset.univ fun k : Fin k0_t1_loop.trips =>
        tripRes m d (coordsV c s) k g)
      = iprop((tLoc d ↦{fullShare} m (tLoc d)) ∗ oLoc d ↦{fullShare} g) := by
  rw [← split_blocks (F := F) m d g, bigSep_univ_prod]
  refine bigSep_congr fun c _ => ?_
  rw [bigSep_univ_prod]

theorem st0_eq : (bigSep Finset.univ fun c : Fin ((K (F := F)).nCore 0) => (P m).st 0 d c)
    = iprop((tLoc d ↦{fullShare} m (tLoc d)) ∗ oLoc d ↦{fullShare} m (oLoc d)) :=
  split_nested (F := F) m d (m (oLoc d))
theorem dn0_eq : (bigSep Finset.univ fun c : Fin ((K (F := F)).nCore 0) => (P m).dn 0 d c)
    = iprop((tLoc d ↦{fullShare} m (tLoc d)) ∗ oLoc d ↦{fullShare} outG m d) :=
  split_nested (F := F) m d (outG m d)

end

end Cert.Proof.KB

end
-- ==== Proof.KBLaunch.lean ====
/-
  The launch. Every thread of the device runs: the TensorCore starts the two SparseCores, each sequencer hands its
  sixteen subcores their tasks, each subcore runs the task proved in the body module, and the results come back the
  same way. @main is the one call: it gives away the table and the result whole — which is every block's rows, split as
  the split module says — and gets them back with every block of the result holding the table's rows: the result is
  the table repeated. The integer argument is never touched.
-/
import proofs.«210005_g3977139716852_cont_8to1_b_2046_23_alg».proof.Proof.KBBody
import proofs.«210005_g3977139716852_cont_8to1_b_2046_23_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_bcast (coordsV c s)
          tW (Memref.isWhole_whole _) oW (Memref.isWhole_whole _) bW (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore is handed exactly its sixteen subcores' arrays, and hands back exactly theirs. -/
theorem vecSplit : (K (F := F)).VecSplit' (P m) 0 := by
  intro d c
  show (bigSep Finset.univ fun i : Fin ((K (F := F)).nSub 0) => tileGo m d (coordsV (Fin.cast nCore_zero c) (Fin.cast nSub_zero i)))
    ⊢ |={Set.univ}=> iprop((bigSep Finset.univ fun i : Fin ((K (F := F)).nSub 0) => tileGo m d (coordsV (Fin.cast nCore_zero c) (Fin.cast nSub_zero i)))
      ∗ ((bigSep Finset.univ fun i : Fin ((K (F := F)).nSub 0) => tileTd m d (coordsV (Fin.cast nCore_zero c) (Fin.cast nSub_zero i)))
          -∗ bigSep Finset.univ fun i : Fin ((K (F := F)).nSub 0) => tileTd m d (coordsV (Fin.cast nCore_zero c) (Fin.cast nSub_zero i))))
  iintro H; imodintro
  isplitl [H]; · iexact H
  iintro Htd; iexact Htd

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves: the arguments at their launch contents, the result at the table repeated. -/
abbrev FIN (d : Dev nD) : sProp 𝕄 :=
  iprop((xLoc d ↦{fullShare} m (xLoc d)) ∗ (tLoc d ↦{fullShare} m (tLoc d)) ∗ oLoc d ↦{fullShare} outG m d)

/-- @main on device `d`'s TensorCore: the one call, from the table and the result whole, back with the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Ht Ho]
  · iapply (Entails.of_eq (st0_eq (F := F) m d).symm)
    isplitl [Ht]; · iexact Ht
    iexact Ho
  iintro ⟨Hst, Hdn⟩
  ihave Hdn' := (Entails.of_eq (dn0_eq (F := F) m d)) $$ Hdn
  icases Hdn' with ⟨Ht, Ho⟩
  imodintro
  isplitl [Hst]; · iexact Hst
  isplitl [Hx]; · iexact Hx
  isplitl [Ht]; · iexact Ht
  iexact Ho

def fq (d : Dev nD) (s' : Phys nD τ sig (Elt F)) : Prop :=
  s'.mem.mem (xLoc d) = m (xLoc d) ∧ s'.mem.mem (tLoc d) = m (tLoc d) ∧ s'.mem.mem (oLoc d) = outG m d

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result is the table repeated; the arguments are unchanged. -/
def QC : PUnit × MemSt nD τ sig (Elt F) → Prop := fun r => ∀ c : Dev nD,
  r.2.mem (oLoc c) = outG m c ∧ r.2.mem (xLoc c) = m (xLoc c) ∧ r.2.mem (tLoc c) = m (tLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.lean ====
/-
  The claim: a kernel that lays a table of 8192 rows of 768 numbers out four times, against
  `jnp.tile(table[None], (4, 1, 1))`.

  The kernel runs on the 32 vector subcores of the two SparseCores. Subcore s of SparseCore c takes rows
  512 s + 256 c + [0, 256) of the table in two blocks of 128 rows: each block is copied into the subcore's scratch and
  from there into the same rows of each of the four batch entries of the result. The blocks of different subcores and
  trips are disjoint and together are all 8192 rows, so at the end entry (b, r, e) of the result is entry (r, e) of the
  table, for every b. The reference inserts a unit axis, broadcasts it to extent 4 and reshapes, which is the same
  function of the table. Nothing is computed on the numbers: the two results are equal over the extended reals because
  they are the same elements of the same table, and no finiteness is used. The integer argument is read by neither
  program.

  The five conjuncts. The kernel's two frames (as printed, and idealized) are its run with the value dropped: every
  thread ends, nothing faults, the arguments end unchanged. The reference's frame is its run with the result dropped.
  The idealization rewrote no operation, so there is nothing to preserve. The value claim pairs the two runs: both
  results are the table repeated.
-/
import proofs.«210005_g3977139716852_cont_8to1_b_2046_23_alg».proof.Defs
import proofs.«210005_g3977139716852_cont_8to1_b_2046_23_alg».proof.Proof.Gen.Kernel
import proofs.«210005_g3977139716852_cont_8to1_b_2046_23_alg».proof.Proof.Gen.Kernel.Skeleton
import proofs.«210005_g3977139716852_cont_8to1_b_2046_23_alg».proof.Proof.Gen.KernelIdeal
import proofs.«210005_g3977139716852_cont_8to1_b_2046_23_alg».proof.Proof.Gen.KernelIdeal.Skeleton
import proofs.«210005_g3977139716852_cont_8to1_b_2046_23_alg».proof.Proof.Gen.ReferenceIdeal
import proofs.«210005_g3977139716852_cont_8to1_b_2046_23_alg».proof.Proof.Gen.ReferenceIdeal.Run
import proofs.«210005_g3977139716852_cont_8to1_b_2046_23_alg».proof.Proof.Gen.ReferenceIdeal.Read
import proofs.«210005_g3977139716852_cont_8to1_b_2046_23_alg».proof.Proof.Gen.Pre_input_domain
import proofs.«210005_g3977139716852_cont_8to1_b_2046_23_alg».proof.Proof.RefValue
import proofs.«210005_g3977139716852_cont_8to1_b_2046_23_alg».proof.Proof.KILaunch
import proofs.«210005_g3977139716852_cont_8to1_b_2046_23_alg».proof.Proof.KBLaunch
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ =>
  (θ_run Cert.Kernel.defs _ _).mono (fun _ h c => ⟨(h c).2.1, (h c).2.2⟩) (Cert.Proof.KB.run_main (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.Proof.KI.run_main (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the table repeated four times. -/
theorem algebraic : Cert.algebraic_KernelIdeal_ReferenceIdeal := by
  intro m ρ m' ρ' _ hagree
  refine ⟨fun c => Cert.Proof.KI.outG m c, Cert.Proof.KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Proof.RefValue.ref_eq, (hagree c).2]
  rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
